-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x1024 : Shape := ⟨2, ![256, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x4096x1024 .f32) (main_arg1 : FVec F S256x1024 .f32) (main_arg2 : FVec F S256x1024 .f32) (main_arg3 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x4096x1024 : Shape := ⟨3, ![8, 4096, 1024]⟩
abbrev S256x1024 : Shape := ⟨2, ![256, 1024]⟩
abbrev S1024x1024 : Shape := ⟨2, ![1024, 1024]⟩
abbrev S1536x1024 : Shape := ⟨2, ![1536, 1024]⟩
abbrev S1024x1536 : Shape := ⟨2, ![1024, 1536]⟩
abbrev S8x4096x256 : Shape := ⟨3, ![8, 4096, 256]⟩
abbrev S1x512x1024 : Shape := ⟨3, ![1, 512, 1024]⟩
abbrev S1x512x256 : Shape := ⟨3, ![1, 512, 256]⟩
abbrev S512x1024 : Shape := ⟨2, ![512, 1024]⟩
abbrev S512x1536 : Shape := ⟨2, ![512, 1536]⟩
abbrev S512x256 : Shape := ⟨2, ![512, 256]⟩
abbrev S8x256x1024 : Shape := ⟨3, ![8, 256, 1024]⟩
abbrev S1x1024x256 : Shape := ⟨3, ![1, 1024, 256]⟩
abbrev S1x1024x1024 : Shape := ⟨3, ![1, 1024, 1024]⟩
abbrev S1x256x1024 : Shape := ⟨3, ![1, 256, 1024]⟩
abbrev S1024x256 : Shape := ⟨2, ![1024, 256]⟩
abbrev S1x2048x256 : Shape := ⟨3, ![1, 2048, 256]⟩
abbrev S1x2048x1024 : Shape := ⟨3, ![1, 2048, 1024]⟩
abbrev S2048x256 : Shape := ⟨2, ![2048, 256]⟩
abbrev S2048x1024 : Shape := ⟨2, ![2048, 1024]⟩

abbrev nBuf : Space → Nat
  | .hbm => 12
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S1536x1024, .f32⟩
  | .hbm, ⟨5, _⟩ => ⟨S1536x1024, .bf16⟩
  | .hbm, ⟨6, _⟩ => ⟨S1024x1536, .bf16⟩
  | .hbm, ⟨7, _⟩ => ⟨S8x4096x256, .bf16⟩
  | .hbm, ⟨8, _⟩ => ⟨S8x4096x256, .bf16⟩
  | .hbm, ⟨9, _⟩ => ⟨S8x4096x1024, .bf16⟩
  | .hbm, ⟨10, _⟩ => ⟨S8x256x1024, .bf16⟩
  | .hbm, ⟨11, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1536, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S256x1024, .f32⟩
  | .local _ .vmem, ⟨16, _⟩ => ⟨S1x2048x256, .bf16⟩
  | .local _ .vmem, ⟨17, _⟩ => ⟨S1x2048x256, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x2048x1024, .f32⟩
  | .local _ .vmem, ⟨21, _⟩ => ⟨S1x2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  concatenates_S256x1024_S256x1024_S1024x1024_S1536x1024_d0 : Shape.Concatenates [S256x1024, S256x1024, S1024x1024] S1536x1024 0
  bitsLt_bf16_f32 : FTy.bits .bf16 < FTy.bits .f32
  transposes_S1536x1024_S1024x1536_1_0 : S1536x1024.Transposes [1, 0] S1024x1536
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  slices_S512x1536_o0_0_S512x256 : S512x1536.Slices ![0, 0] S512x256
  slices_S512x1536_o0_256_S512x256 : S512x1536.Slices ![0, 256] S512x256
  slices_S512x1536_o0_512_S512x1024 : S512x1536.Slices ![0, 512] S512x1024
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S512x1024_S1024x1536_S512x1536_1_0_0_1_n_n_wf : DotDims.WF S512x1024 S1024x1536 S512x1536 [1] [0] [0] [1] [] []
  dot_S1024x256_S1024x1024_S256x1024_0_0_1_1_n_n_wf : DotDims.WF S1024x256 S1024x1024 S256x1024 [0] [0] [1] [1] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1536.size a ≤ S1024x1536.size a
  hwx0_1 : ∀ i : grid0.Coords, EltTy.bits .bf16 = 32 ∨ (Rect.block (s := S1024x1536) S1024x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S8x4096x256.size a
  hwx0_2 : ∀ i : grid0.Coords, EltTy.bits .bf16 = 32 ∨ (Rect.block (s := S8x4096x256) S1x512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S8x4096x256.size a
  hwx0_3 : ∀ i : grid0.Coords, EltTy.bits .bf16 = 32 ∨ (Rect.block (s := S8x4096x256) S1x512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x4096x1024.size a
  hwx0_4 : ∀ i : grid0.Coords, EltTy.bits .bf16 = 32 ∨ (Rect.block (s := S8x4096x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x4096x256.size a
  hwx1_0 : ∀ i : grid1.Coords, EltTy.bits .bf16 = 32 ∨ (Rect.block (s := S8x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x4096x1024.size a
  hwx1_1 : ∀ i : grid1.Coords, EltTy.bits .bf16 = 32 ∨ (Rect.block (s := S8x4096x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S8x256x1024.size a
  hwx1_2 : ∀ i : grid1.Coords, EltTy.bits .bf16 = 32 ∨ (Rect.block (s := S8x256x1024) S1x256x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x256.size a ≤ S8x4096x256.size a
  hwx2_0 : ∀ i : grid2.Coords, EltTy.bits .bf16 = 32 ∨ (Rect.block (s := S8x4096x256) S1x2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x1024.size a ≤ S8x256x1024.size a
  hwx2_1 : ∀ i : grid2.Coords, EltTy.bits .bf16 = 32 ∨ (Rect.block (s := S8x256x1024) S1x256x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x1024.size a ≤ S8x4096x1024.size a
  hwx2_2 : ∀ i : grid2.Coords, EltTy.bits .f32 = 32 ∨ (Rect.block (s := S8x4096x1024) S1x2048x1024.size (cc2_transform_2 i) (hinb2_2 i)).WholeWords (EltTy.packing .f32)

variable [Facts₀]

def dot_S512x1024_S1024x1536_S512x1536_1_0_0_1_n_n : DotDims S512x1024 S1024x1536 S512x1536 where
  lhsContracting := [1]
  rhsContracting := [0]
  lhsNonContracting := [0]
  rhsNonContracting := [1]
  lhsBatch := []
  rhsBatch := []
  wf := dot_S512x1024_S1024x1536_S512x1536_1_0_0_1_n_n_wf
def dot_S1024x256_S1024x1024_S256x1024_0_0_1_1_n_n : DotDims S1024x256 S1024x1024 S256x1024 where
  lhsContracting := [0]
  rhsContracting := [0]
  lhsNonContracting := [1]
  rhsNonContracting := [1]
  lhsBatch := []
  rhsBatch := []
  wf := dot_S1024x256_S1024x1024_S256x1024_0_0_1_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_1) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_2) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v3_0) S1x2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x4096x1024 : Shape := ⟨3, ![8, 4096, 1024]⟩
abbrev S256x1024 : Shape := ⟨2, ![256, 1024]⟩
abbrev S1024x1024 : Shape := ⟨2, ![1024, 1024]⟩
abbrev S8x4096x256 : Shape := ⟨3, ![8, 4096, 256]⟩
abbrev S8x4096x4096 : Shape := ⟨3, ![8, 4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256x1024, .f32⟩
  | .hbm, ⟨3, _⟩ => ⟨S1024x1024, .f32⟩
  | .hbm, ⟨4, _⟩ => ⟨S8x4096x256, .f32⟩
  | .hbm, ⟨5, _⟩ => ⟨S8x4096x256, .f32⟩
  | .hbm, ⟨6, _⟩ => ⟨S8x4096x1024, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  dot_S8x4096x1024_S256x1024_S8x4096x256_2_1_01_0_n_n_wf : DotDims.WF S8x4096x1024 S256x1024 S8x4096x256 [2] [1] [0, 1] [0] [] []
  dot_S8x4096x1024_S1024x1024_S8x4096x1024_2_1_01_0_n_n_wf : DotDims.WF S8x4096x1024 S1024x1024 S8x4096x1024 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.KernelIdeal.Data.lean ====
/-
  The three kernel calls of the program, each at the buffer contents `V` it is entered with: what every
  window's block is at a grid point, what the body leaves in every output block (and, for the reduction
  call, in its accumulator), and the data the pipeline rule is instantiated with.

  Call 0 (projection): a 512-row slab of `x` against the whole transposed weight matrix; three outputs,
  the three column ranges of the product (the first scaled by 1/32).
  Call 1 (reduction): for each batch, four 1024-row slabs; the accumulator is reset at the first slab,
  gains `phiᵀ · g` of the slab at every one, and is written out (as the output block) at the fourth.
  Call 2 (final product): a 2048-row slab of the scaled projection against the batch's 256×1024 matrix.
-/
import proofs.«146318_j26594437496900_2_alg».proof.Proof.Gen.KernelIdeal.Launch
import proofs.«146318_j26594437496900_2_alg».proof.Proof.Gen.KernelIdeal.Skeleton
import proofs.«146318_j26594437496900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0 -/

/-- Window `w`'s block at grid point `t` of call 0, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x1024 := Rect.unit (s := S1x512x1024) ![0, 0, 0] S1x512x1024.size inb_S1x512x1024_S1x512x1024_0_0_0
abbrev r0_1 : Rect S1024x1536 := Rect.unit (s := S1024x1536) ![0, 0] S1024x1536.size inb_S1024x1536_S1024x1536_0_0
abbrev r0_2 : Rect S1x512x256 := Rect.unit (s := S1x512x256) ![0, 0, 0] S1x512x256.size inb_S1x512x256_S1x512x256_0_0_0

/-- The scaled first 256 columns of the slab's product, as the block of output 2. -/
def out0_2 (x0 : Vec F S1x512x1024 .f32) (x1 : Vec F S1024x1536 .bf16) : Vec F S1x512x256 .bf16 :=
  View.canon [⟨r0_2, k0_pay2 (View.ld x0 r0_0) (View.ld x1 r0_1)⟩]
/-- Columns 256..511 of the slab's product, as the block of output 3. -/
def out0_3 (x0 : Vec F S1x512x1024 .f32) (x1 : Vec F S1024x1536 .bf16) : Vec F S1x512x256 .bf16 :=
  View.canon [⟨r0_2, k0_pay3 (View.ld x0 r0_0) (View.ld x1 r0_1)⟩]
/-- Columns 512..1535 of the slab's product, as the block of output 4. -/
def out0_4 (x0 : Vec F S1x512x1024 .f32) (x1 : Vec F S1024x1536 .bf16) : Vec F S1x512x1024 .bf16 :=
  View.canon [⟨r0_0, k0_pay4 (View.ld x0 r0_0) (View.ld x1 r0_1)⟩]

theorem cover0_2 (p0 : Vec F S1x512x256 .bf16) (y : S1x512x256.Idx) :
    ∃ pc ∈ ([⟨r0_2, p0⟩] : List (View.Piece (Elt F) S1x512x256 .bf16)), y ∈ pc.1.set :=
  View.cover_of_tiled [⟨r0_2, p0⟩] S1x512x256.size (by rfl) y
theorem cover0_4 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- The pipeline data of call 0: arrays as entered; inputs keep their blocks, outputs end at `out0_w`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨_ + 5, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Call 2 -/

/-- Window `w`'s block at grid point `t` of call 2, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x2048x256 := Rect.unit (s := S1x2048x256) ![0, 0, 0] S1x2048x256.size inb_S1x2048x256_S1x2048x256_0_0_0
abbrev r2_1 : Rect S1x256x1024 := Rect.unit (s := S1x256x1024) ![0, 0, 0] S1x256x1024.size inb_S1x256x1024_S1x256x1024_0_0_0
abbrev r2_2 : Rect S1x2048x1024 := Rect.unit (s := S1x2048x1024) ![0, 0, 0] S1x2048x1024.size inb_S1x2048x1024_S1x2048x1024_0_0_0

/-- The slab's product with the batch's matrix, as the block of output 2. -/
def out2_2 (x0 : Vec F S1x2048x256 .bf16) (x1 : Vec F S1x256x1024 .bf16) : Vec F S1x2048x1024 .f32 :=
  View.canon [⟨r2_2, k2_pay1 (View.ld x0 r2_0) (View.ld x1 r2_1)⟩]

theorem cover2_2 (p0 : Vec F S1x2048x1024 .f32) (y : S1x2048x1024.Idx) :
    ∃ pc ∈ ([⟨r2_2, p0⟩] : List (View.Piece (Elt F) S1x2048x1024 .f32)), y ∈ pc.1.set :=
  View.cover_of_tiled [⟨r2_2, p0⟩] S1x2048x1024.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨_ + 3, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## Call 1 -/

/-- Window `w`'s block at grid point `t` of call 1, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The accumulator: a whole scoped buffer of the call's own. -/
abbrev scM1 : Memref sig .tc .vmem S256x1024 .f32 := Memref.whole cc1_scratch0

/-- The accumulator after grid point `n`: the slab's `phiᵀ · g` added to zero at the first slab of a batch
    (`n % 4 = 0`), to what the point before left otherwise. -/
def acc1 (c : Dev nD) : (n : ℕ) → n < cfg1.N → Vec F S256x1024 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 4 = 0) :
    acc1 V c t.val t.isLt = k1_pay2 (iblk1 V c 0 t) (iblk1 V c 1 t) k1_pay1 := by
  obtain ⟨n, hn⟩ := t
  cases n with
  | zero => rfl
  | succ n => exact (if_pos h0)

theorem acc1_next (c : Dev nD) (t : Fin cfg1.N) (h0 : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (if_neg h0)

/-- The other scoped buffers of the core (every call's staging buffers), each at some contents. -/
abbrev rest1 (c : Dev nD) : sProp 𝕄 :=
  Pipeline.scopedRestBut (Ix := Unit) (Name := ℕ) (U := UR sig nD τ) (Lvl := ℕ) (Val := Elt F) spec1 c [cc1_scratch0]

/-- The call's invariant before position `n`: at the start every scoped buffer at anything; afterwards the
    accumulator at what the point before left in it. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 c) ∗ (∃ r, prngReg c r)) := by
  cases n with
  | zero => exact absurd rfl hz
  | succ n => rfl

/-- The start invariant with the accumulator split off the other scoped buffers. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]
  try rfl

/-- The pipeline data of call 1: inputs keep their blocks; the output block is the accumulator (narrowed)
    — meaningful at the last slab of a batch, where it is stored and written back; the invariant carries the
    accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
    | ⟨_ + 3, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Hand

end
-- ==== Proof.KernelIdeal.Run.lean ====
/-
  The whole program as a run of four pieces — the host lines that stack, narrow and transpose the weights, then the
  three kernel calls —, with the contents of every buffer named at each boundary: a call's arrays end at what its
  write-backs leave, every other buffer as the call found it. From it: every execution ends, faults nowhere, keeps
  the four argument arrays, and leaves the result array at what the last call's write-backs fold to.
  Stated for any float instance, under the three calls' body obligations as hypotheses.
-/
import proofs.«146318_j26594437496900_2_alg».proof.Proof.Gen.KernelIdeal.Launch
import proofs.«146318_j26594437496900_2_alg».proof.Proof.Gen.KernelIdeal.Skeleton
import proofs.«146318_j26594437496900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146318_j26594437496900_2_alg».proof.Proof.Gen.KernelIdeal.Regions
import proofs.«146318_j26594437496900_2_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the run needs of the three kernel bodies. -/
structure Bodies : Prop where
  b0 : ∀ (V : (c : Dev nD) → (b : Ref sig .tc) → Buf (Elt F) ((c : Thread nD τ).loc b)) (c : Dev nD),
    BodyObligation (dat0 (F := F) V c) (defs₀ (F := F)) Variants.none () Set.univ
  b1 : ∀ (V : (c : Dev nD) → (b : Ref sig .tc) → Buf (Elt F) ((c : Thread nD τ).loc b)) (c : Dev nD),
    BodyObligation (dat1 (F := F) V c) (defs₀ (F := F)) Variants.none () Set.univ
  b2 : ∀ (V : (c : Dev nD) → (b : Ref sig .tc) → Buf (Elt F) ((c : Thread nD τ).loc b)) (c : Dev nD),
    BodyObligation (dat2 (F := F) V c) (defs₀ (F := F)) Variants.none () Set.univ
  hin1 : ∀ (V : (c : Dev nD) → (b : Ref sig .tc) → Buf (Elt F) ((c : Thread nD τ).loc b)) (c : Dev nD),
    (Pipeline.ΦA spec1 c : sProp 𝕄) ⊢ (dat1 (F := F) V c).Φ 0
  hout1 : ∀ (V : (c : Dev nD) → (b : Ref sig .tc) → Buf (Elt F) ((c : Thread nD τ).loc b)) (c : Dev nD),
    (dat1 (F := F) V c).Φ (Fin.last cfg1.N) ⊢ (Pipeline.ΦA spec1 c : sProp 𝕄)

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host lines (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its arrays at what the write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### No piece writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-- The result array at the end: what call 2's write-backs leave. -/
theorem W4_result (c : Dev nD) : W4 m ρ c (Proc.devRef .tc main_v5) = (dat2 (V3 m ρ) c).arrAt 2 cfg2.N :=
  W4_arr m ρ c 2

/-! ### What each call is entered with, read back through the boundaries -/

theorem V3_v3_0 (c : Dev nD) : V3 m ρ c main_v3_0 = (dat0 (V1 m ρ) c).arrAt 2 cfg0.N :=
  (W3_of_ne m ρ c main_v3_0 (by decide)).trans (W2_arr m ρ c 2)
theorem V3_v4 (c : Dev nD) : V3 m ρ c main_v4 = (dat1 (V2 m ρ) c).arrAt 2 cfg1.N := W3_arr m ρ c 2
theorem V2_v3_1 (c : Dev nD) : V2 m ρ c main_v3_1 = (dat0 (V1 m ρ) c).arrAt 3 cfg0.N := W2_arr m ρ c 3
theorem V2_v3_2 (c : Dev nD) : V2 m ρ c main_v3_2 = (dat0 (V1 m ρ) c).arrAt 4 cfg0.N := W2_arr m ρ c 4
theorem V1_arg0 (c : Dev nD) : V1 m ρ c main_arg0 = m ((c : Thread nD τ).loc main_arg0) :=
  StableHlo.after_of_writes_sub hostOps0 _ hostOps0_writes (r := main_arg0) (by decide)

/-! ## The pipeline data family and the thread state -/

abbrev adm : (p : Fin 3) → (pcfgs (F := F) p).Adm := fun p => (cfgs p).toPCfg_adm
/-- Every call's data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every piece: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as pieces of the run -/

variable (hB : Bodies (F := F))

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hB.b0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hB.b1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    have h := hB.hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V2 m ρ) c).Φ (Fin.last cfg1.N) from rfl]
    have h := hB.hout1 (V2 m ρ) c
    unfold Pipeline.ΦA at h
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hB.b2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ hB),
    .region (reg1 m ρ hB),
    .region (reg2 m ρ hB) ]
theorem main_run (c : Dev nD) : main (F := F) c = Pipeline.Seg.run (segs m ρ hB) := (main_chain c).trans (by chain_rfl)

include hB

set_option backward.isDefEq.respectTransparency.types false in
/-- Every execution ends, nothing faults; the result array ends at what call 2's write-backs fold to and the four
    argument arrays as launched. -/
theorem run_all : θ_run defs (onTc (τ := τ) (main (F := F))) ⟨m, fun _ => 0, ρ⟩ (fun r => ∀ c : Dev nD,
      r.2.mem ((c.tc : Thread nD τ).loc main_v5) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ hB)
    (fun c Q => by rw [main_run m ρ hB c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame claim's post: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ hB)

end Cert.KernelIdeal.Hand

end
-- ==== Proof.KernelIdeal.Body0.lean ====
/-
  The body of call 0 (projection) at a generic grid point.

  The body reads its two input blocks whole (a 512-row slab and the whole weight matrix); then, for each of
  the three output blocks in turn, it reads the block (a value it never uses) and stores one column range of
  the slab's product over the whole block. So on whole staging buffers holding the inputs' blocks it leaves
  the inputs as they were and each output buffer at its one whole-block store read back: `out0_2`, `out0_3`
  and `out0_4` of the two blocks. The pipeline's invariant and what the core owes pass through unread.
-/
import proofs.«146318_j26594437496900_2_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging buffers: the two inputs' at contents `x0`, `x1` and the three outputs' at
    anything. It runs to the continuation holding the inputs' as they were and the outputs' at `out0_2 x0 x1`,
    `out0_3 x0 x1`, `out0_4 x0 x1`: each output's single store covers its whole block, so what is read back
    is the stored column range wherever one looks. -/
theorem sound_kernel0 (c : Dev nD) (E : Set ℕ) (i : grid0.Coords)
    (arg0 : Memref sig .tc .vmem S1x512x1024 .f32) (harg0 : arg0.IsWhole)
    (arg1 : Memref sig .tc .vmem S1024x1536 .bf16) (harg1 : arg1.IsWhole)
    (arg2 : Memref sig .tc .vmem S1x512x256 .bf16) (harg2 : arg2.IsWhole)
    (arg3 : Memref sig .tc .vmem S1x512x256 .bf16) (harg3 : arg3.IsWhole)
    (arg4 : Memref sig .tc .vmem S1x512x1024 .bf16) (harg4 : arg4.IsWhole)
    (x0 : Vec F S1x512x1024 .f32) (x1 : Vec F S1024x1536 .bf16) (K : PUnit → sProp 𝕄) :
    iprop(owns (c : Thread nD τ) arg0 fullShare x0 ∗ owns (c : Thread nD τ) arg1 fullShare x1
        ∗ (∃ d, owns (c : Thread nD τ) arg2 fullShare d)
        ∗ (∃ d, owns (c : Thread nD τ) arg3 fullShare d)
        ∗ (∃ d, owns (c : Thread nD τ) arg4 fullShare d)
        ∗ (iprop(owns (c : Thread nD τ) arg0 fullShare x0 ∗ owns (c : Thread nD τ) arg1 fullShare x1
            ∗ owns (c : Thread nD τ) arg2 fullShare (out0_2 x0 x1)
            ∗ owns (c : Thread nD τ) arg3 fullShare (out0_3 x0 x1)
            ∗ owns (c : Thread nD τ) arg4 fullShare (out0_4 x0 x1)) -∗ K ⟨⟩))
      ⊢ wp frame (wpE (defs₀ (F := F)) Variants.none c none) E
          (cc0__proj_kernel i arg0 harg0 arg1 harg1 arg2 harg2 arg3 harg3 arg4 harg4) K := by
  rw [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_2 _)
  iexists _; isplitr
  swap; · iexact H4
  ipureintro
  exact View.read_writes_eq_canon _ _ _ (cover0_4 _)

/-! ## The body obligation, at a generic point -/

/-- What the body is called with at point `t`: the invariant, what the core owes, and each window's current
    staging buffer at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the same with each buffer at what it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant
    and what the core owes do not change across the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for call 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Body1.lean ====
/-
  The body obligation of call 1 (the reduction): for each batch, four 1024-row slabs; a scratch accumulator is
  zeroed at the first slab of a batch, gains the slab's `phiᵀ · g` at every slab, and at the fourth its narrowing
  is stored as the output block, which is written back there and only there.

  A grid point `t` is slab `t % 4` of batch `t / 4`. Three cases of the body's two conditionals:
  first slab (`t % 4 = 0`): the accumulator is stored with zeros, read back, and stored with the slab's product added;
  middle slabs (`t % 4 ∈ {1, 2}`): the accumulator is read and stored with the slab's product added;
  last slab (`t % 4 = 3`): as a middle slab, then the accumulator is read back and the output block stored with its narrowing.
  Off the last slab the output window is idle: its buffer is handed back as received.

  The call's invariant carries the accumulator from point to point at `acc1`: at anything before the first point,
  afterwards at what the point before left.
-/
import proofs.«146318_j26594437496900_2_alg».proof.Proof.KernelIdeal.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The first conditional's condition (grid coordinate 1 is zero), as the body computes it. -/
abbrev cond1_0 (i : grid1.Coords) : Prop := (Scalar.cmpi .ne (Scalar.extui (Scalar.cmpi .eq (BitVec.ofNat 32 (i 1).val) 0#32)) 0#32) = 1#1
/-- It holds at the points ≡ 0 (mod 4): the first slab of a batch. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (grid coordinate 1 is three). -/
abbrev cond1_1 (i : grid1.Coords) : Prop := k1_cond2 i = 1#1
/-- It holds at the points ≡ 3 (mod 4): the last slab of a batch. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Whole-block loads and stores

Every load and store of the body goes through the whole-shape rectangle at zero offsets of its buffer. Stated over any
shape: such a store, made last, leaves its payload whatever the buffer held and whatever was stored before; such a load
from a whole buffer reads its contents. -/

theorem hz2_c1 : (![0, 0] : Fin 2 → Nat) = fun _ => 0 := funext fun a => by fin_cases a <;> rfl
theorem hz3_c1 : (![0, 0, 0] : Fin 3 → Nat) = fun _ => 0 := funext fun a => by fin_cases a <;> rfl

section Whole

variable {S : Shape} {e : EltTy} {sp : Space}

theorem read_writes_whole_c1 (v : View sig .tc sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero h inb y⟩),
    View.canon_cons_unit_zero h inb w L]

theorem readAt_whole_c1 (m : Memref sig .tc sp S e) (hm : m.IsWhole) {off : Fin S.rank → Nat} (h : off = fun _ => 0)
    (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h inb]

end Whole

/-! ## What the body's stores leave, case by case -/

/-- Off the first slab: the accumulator's one store leaves the slab's product added to what it held. -/
theorem acc_left1 (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (x0 : Vec F S1x1024x256 .bf16) (x1 : Vec F S1x1024x1024 .bf16) (y : Vec F S1x256x1024 .bf16) (xs : Vec F S256x1024 .f32) :
    arg5.view.read (Elt F) (arg5.view.writes (Elt F) (harg5.unread xs)
      [⟨Rect.unit ![0, 0] S256x1024.size inb_S256x1024_S256x1024_0_0,
        k1_pay2 (arg2.view.readAt (Elt F) (Rect.unit ![0, 0, 0] S1x1024x256.size inb_S1x1024x256_S1x1024x256_0_0_0).toLoadRect (harg2.unread x0))
          (arg3.view.readAt (Elt F) (Rect.unit ![0, 0, 0] S1x1024x1024.size inb_S1x1024x1024_S1x1024x1024_0_0_0).toLoadRect (harg3.unread x1))
          (arg5.view.readAt (Elt F) (Rect.unit ![0, 0] S256x1024.size inb_S256x1024_S256x1024_0_0).toLoadRect (harg5.unread xs))⟩])
      = k1_pay2 x0 x1 xs := by
  rw [read_writes_whole_c1 _ _ hz2_c1, readAt_whole_c1 arg2 harg2 hz3_c1, readAt_whole_c1 arg3 harg3 hz3_c1, readAt_whole_c1 arg5 harg5 hz2_c1]

/-- At the first slab: the accumulator is zeroed, read back, and its second store leaves the slab's product added to zero. -/
theorem acc_left_first1 (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (x0 : Vec F S1x1024x256 .bf16) (x1 : Vec F S1x1024x1024 .bf16) (y : Vec F S1x256x1024 .bf16) (xs : Vec F S256x1024 .f32) :
    arg5.view.read (Elt F) (arg5.view.writes (Elt F) (harg5.unread xs)
      [⟨Rect.unit ![0, 0] S256x1024.size inb_S256x1024_S256x1024_0_0,
        k1_pay2 (arg2.view.readAt (Elt F) (Rect.unit ![0, 0, 0] S1x1024x256.size inb_S1x1024x256_S1x1024x256_0_0_0).toLoadRect (harg2.unread x0))
          (arg3.view.readAt (Elt F) (Rect.unit ![0, 0, 0] S1x1024x1024.size inb_S1x1024x1024_S1x1024x1024_0_0_0).toLoadRect (harg3.unread x1))
          (arg5.view.readCov [⟨Rect.unit ![0, 0] S256x1024.size inb_S256x1024_S256x1024_0_0, k1_pay1⟩] (Rect.unit ![0, 0] S256x1024.size inb_S256x1024_S256x1024_0_0).toLoadRect)⟩,
       ⟨Rect.unit ![0, 0] S256x1024.size inb_S256x1024_S256x1024_0_0, k1_pay1⟩])
      = k1_pay2 x0 x1 k1_pay1 := by
  rw [read_writes_whole_c1 _ _ hz2_c1, readAt_whole_c1 arg2 harg2 hz3_c1, readAt_whole_c1 arg3 harg3 hz3_c1, View.readCov_unit_zero _ hz2_c1]

/-- At the last slab: the output block's one store leaves the narrowing of the accumulator as just updated and read back. -/
theorem out_left_last1 (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (x0 : Vec F S1x1024x256 .bf16) (x1 : Vec F S1x1024x1024 .bf16) (y : Vec F S1x256x1024 .bf16) (xs : Vec F S256x1024 .f32) :
    arg4.view.read (Elt F) (arg4.view.writes (Elt F) (harg4.unread y)
      [⟨Rect.unit ![0, 0, 0] S1x256x1024.size inb_S1x256x1024_S1x256x1024_0_0_0,
        k1_pay3 (arg5.view.readCov
          [⟨Rect.unit ![0, 0] S256x1024.size inb_S256x1024_S256x1024_0_0,
            k1_pay2 (arg2.view.readAt (Elt F) (Rect.unit ![0, 0, 0] S1x1024x256.size inb_S1x1024x256_S1x1024x256_0_0_0).toLoadRect (harg2.unread x0))
              (arg3.view.readAt (Elt F) (Rect.unit ![0, 0, 0] S1x1024x1024.size inb_S1x1024x1024_S1x1024x1024_0_0_0).toLoadRect (harg3.unread x1))
              (arg5.view.readAt (Elt F) (Rect.unit ![0, 0] S256x1024.size inb_S256x1024_S256x1024_0_0).toLoadRect (harg5.unread xs))⟩]
          (Rect.unit ![0, 0] S256x1024.size inb_S256x1024_S256x1024_0_0).toLoadRect)⟩])
      = k1_pay3 (k1_pay2 x0 x1 xs) := by
  rw [read_writes_whole_c1 _ _ hz3_c1, View.readCov_unit_zero _ hz2_c1, readAt_whole_c1 arg2 harg2 hz3_c1, readAt_whole_c1 arg3 harg3 hz3_c1, readAt_whole_c1 arg5 harg5 hz2_c1]

/-! ## The body on any whole staging memrefs, case by case

The inputs at contents `x0`, `x1`, the output buffer at `y`, the accumulator at `xs`: the body runs to the
continuation holding the inputs as they were and the two others at what the case leaves. -/

set_option maxHeartbeats 2000000 in
/-- A middle slab (neither conditional taken): the accumulator gains the slab's product; the output buffer is untouched. -/
theorem run1_B (c : Dev nD) (i : grid1.Coords)
    (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (hc0 : ¬cond1_0 i) (hc1 : ¬cond1_1 i)
    (x0 : Vec F S1x1024x256 .bf16) (x1 : Vec F S1x1024x1024 .bf16) (y : Vec F S1x256x1024 .bf16) (xs : Vec F S256x1024 .f32)
    (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (y) ∗ owns (c : Thread nD τ) arg5 fullShare (k1_pay2 x0 x1 xs)) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  exact acc_left1 arg2 harg2 arg3 harg3 arg4 harg4 arg5 harg5 x0 x1 y xs

set_option maxHeartbeats 2000000 in
/-- The first slab of a batch (first conditional taken): the accumulator is zeroed, read back, and gains the slab's
    product — whatever it held; the output buffer is untouched. -/
theorem run1_A (c : Dev nD) (i : grid1.Coords)
    (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (hc0 : cond1_0 i) (hc1 : ¬cond1_1 i)
    (x0 : Vec F S1x1024x256 .bf16) (x1 : Vec F S1x1024x1024 .bf16) (y : Vec F S1x256x1024 .bf16) (xs : Vec F S256x1024 .f32)
    (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (y) ∗ owns (c : Thread nD τ) arg5 fullShare (k1_pay2 x0 x1 k1_pay1)) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  exact acc_left_first1 arg2 harg2 arg3 harg3 arg4 harg4 arg5 harg5 x0 x1 y xs

set_option maxHeartbeats 2000000 in
/-- The last slab of a batch (second conditional taken): the accumulator gains the slab's product, is read back, and
    its narrowing is stored as the output block — whatever that buffer held. -/
theorem run1_C (c : Dev nD) (i : grid1.Coords)
    (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (hc0 : ¬cond1_0 i) (hc1 : cond1_1 i)
    (x0 : Vec F S1x1024x256 .bf16) (x1 : Vec F S1x1024x1024 .bf16) (y : Vec F S1x256x1024 .bf16) (xs : Vec F S256x1024 .f32)
    (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 x0 x1 xs)) ∗ owns (c : Thread nD τ) arg5 fullShare (k1_pay2 x0 x1 xs)) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    exact out_left_last1 arg2 harg2 arg3 harg3 arg4 harg4 arg5 harg5 x0 x1 y xs
  iexists _; isplitr
  swap; · iexact HS
  ipureintro
  sl_unfold_run_names
  exact acc_left1 arg2 harg2 arg3 harg3 arg4 harg4 arg5 harg5 x0 x1 y xs

/-! ## Where the windows are idle -/

/-- The two inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Off the last slab of a batch the output window is idle (nothing is stored into it), -/
theorem idleAt1_2 : ∀ t : Fin cfg1.N, ¬cond1_1 (grid1.coords t) → cfg1.idle 2 (grid1.coords t) = true := by decide +kernel
/-- and its block is not written back; -/
theorem noFlush1_2 (t : Fin cfg1.N) (h : ¬t.val % 4 = 3) : (cfg1.win 2).flush t = false :=
  Bool.eq_false_iff.mpr fun hf => h ((flush1_2 t).mp hf)
/-- at the last slab it is live. -/
theorem liveAt1_2 : ∀ t : Fin cfg1.N, cond1_1 (grid1.coords t) → cfg1.idle 2 (grid1.coords t) = false := by decide +kernel

/-! ## The staging memrefs at a point -/

abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position in its batch says which
    conditionals are taken; the invariant hands over the accumulator at what the point before left (at anything at
    the very first point) and takes it back with this slab's product added — to zero at the first slab of a batch;
    the output buffer is handed back as received except at the last slab, where it gets the narrowed accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t h1)]
    rw [acc1_first V c t h0]
    by_cases hz : t.val = 0
    · rw [PhiS1_castSucc V c t, PhiS1_zero V c _ _ hz, PhiA1_eq]
      iintro ⟨⟨⟨⟨%ds, HS⟩, HR⟩, Hg⟩, Ho, ⟨%d0, H0⟩, ⟨%d1, H1⟩, ⟨%d2, H2⟩⟩
      iapply (run1_A c (grid1.coords t) (ms1_0 t) (hs1_0 t) (ms1_1 t) (hs1_1 t) (ms1_2 t) (hs1_2 t) scM1 (Memref.isWhole_whole _) hc0 hc1 (iblk1 V c 0 t) (iblk1 V c 1 t) ((dat1 V c).before 2 t d2) ds Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, HR⟩, Hg⟩, Ho, ⟨%d0, H0⟩, ⟨%d1, H1⟩, ⟨%d2, H2⟩⟩
      iapply (run1_A c (grid1.coords t) (ms1_0 t) (hs1_0 t) (ms1_1 t) (hs1_1 t) (ms1_2 t) (hs1_2 t) scM1 (Memref.isWhole_whole _) hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩⟩
      iapply (run1_C c (grid1.coords t) (ms1_0 t) (hs1_0 t) (ms1_1 t) (hs1_1 t) (ms1_2 t) (hs1_2 t) scM1 (Memref.isWhole_whole _) hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t h1)]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _) hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the start invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KernelIdeal.Body2.lean ====
/-
  The body of call 2 (final product) at a generic grid point.

  The body reads its two input blocks whole, reads the output block (a value it never uses), and stores the
  product of the two inputs over the whole output block. So on whole staging buffers holding the inputs'
  blocks it leaves the inputs as they were and the output buffer at the one whole-block store read back,
  which is `out2_2` of the two blocks. The pipeline's invariant and what the core owes pass through unread.
-/
import proofs.«146318_j26594437496900_2_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging buffers: the two inputs' at contents `x0`, `x1` and the output's at anything.
    It runs to the continuation holding the inputs' as they were and the output's at `out2_2 x0 x1`: the
    single store covers the whole block, so what is read back is the stored product wherever one looks. -/
theorem sound_kernel2 (c : Dev nD) (E : Set ℕ) (i : grid2.Coords)
    (arg0 : Memref sig .tc .vmem S1x2048x256 .bf16) (harg0 : arg0.IsWhole)
    (arg1 : Memref sig .tc .vmem S1x256x1024 .bf16) (harg1 : arg1.IsWhole)
    (arg2 : Memref sig .tc .vmem S1x2048x1024 .f32) (harg2 : arg2.IsWhole)
    (x0 : Vec F S1x2048x256 .bf16) (x1 : Vec F S1x256x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__finalize_kernel i arg0 harg0 arg1 harg1 arg2 harg2) K := by
  rw [cc2__finalize_kernel_eq_skeleton]; unfold cc2__finalize_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`: the invariant, what the core owes, and each window's current
    staging buffer at what it holds before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same with each buffer at what it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant
    and what the core owes do not change across the point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for call 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Kernel.Data.lean ====
/-
  The three kernel calls of the program, each at the buffer contents `V` it is entered with: what every
  window's block is at a grid point, what the body leaves in every output block (and, for the reduction
  call, in its accumulator), and the data the pipeline rule is instantiated with.

  Call 0 (projection): a 512-row slab of `x` against the whole transposed weight matrix; three outputs,
  the three column ranges of the product (the first scaled by 1/32).
  Call 1 (reduction): for each batch, four 1024-row slabs; the accumulator is reset at the first slab,
  gains `phiᵀ · g` of the slab at every one, and is written out (as the output block) at the fourth.
  Call 2 (final product): a 2048-row slab of the scaled projection against the batch's 256×1024 matrix.
-/
import proofs.«146318_j26594437496900_2_alg».proof.Proof.Gen.Kernel.Launch
import proofs.«146318_j26594437496900_2_alg».proof.Proof.Gen.Kernel.Skeleton
import proofs.«146318_j26594437496900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Call 0 -/

/-- Window `w`'s block at grid point `t` of call 0, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x1024 := Rect.unit (s := S1x512x1024) ![0, 0, 0] S1x512x1024.size inb_S1x512x1024_S1x512x1024_0_0_0
abbrev r0_1 : Rect S1024x1536 := Rect.unit (s := S1024x1536) ![0, 0] S1024x1536.size inb_S1024x1536_S1024x1536_0_0
abbrev r0_2 : Rect S1x512x256 := Rect.unit (s := S1x512x256) ![0, 0, 0] S1x512x256.size inb_S1x512x256_S1x512x256_0_0_0

/-- The scaled first 256 columns of the slab's product, as the block of output 2. -/
def out0_2 (x0 : Vec F S1x512x1024 .f32) (x1 : Vec F S1024x1536 .bf16) : Vec F S1x512x256 .bf16 :=
  View.canon [⟨r0_2, k0_pay2 (View.ld x0 r0_0) (View.ld x1 r0_1)⟩]
/-- Columns 256..511 of the slab's product, as the block of output 3. -/
def out0_3 (x0 : Vec F S1x512x1024 .f32) (x1 : Vec F S1024x1536 .bf16) : Vec F S1x512x256 .bf16 :=
  View.canon [⟨r0_2, k0_pay3 (View.ld x0 r0_0) (View.ld x1 r0_1)⟩]
/-- Columns 512..1535 of the slab's product, as the block of output 4. -/
def out0_4 (x0 : Vec F S1x512x1024 .f32) (x1 : Vec F S1024x1536 .bf16) : Vec F S1x512x1024 .bf16 :=
  View.canon [⟨r0_0, k0_pay4 (View.ld x0 r0_0) (View.ld x1 r0_1)⟩]

theorem cover0_2 (p0 : Vec F S1x512x256 .bf16) (y : S1x512x256.Idx) :
    ∃ pc ∈ ([⟨r0_2, p0⟩] : List (View.Piece (Elt F) S1x512x256 .bf16)), y ∈ pc.1.set :=
  View.cover_of_tiled [⟨r0_2, p0⟩] S1x512x256.size (by rfl) y
theorem cover0_4 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- The pipeline data of call 0: arrays as entered; inputs keep their blocks, outputs end at `out0_w`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨_ + 5, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Call 2 -/

/-- Window `w`'s block at grid point `t` of call 2, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x2048x256 := Rect.unit (s := S1x2048x256) ![0, 0, 0] S1x2048x256.size inb_S1x2048x256_S1x2048x256_0_0_0
abbrev r2_1 : Rect S1x256x1024 := Rect.unit (s := S1x256x1024) ![0, 0, 0] S1x256x1024.size inb_S1x256x1024_S1x256x1024_0_0_0
abbrev r2_2 : Rect S1x2048x1024 := Rect.unit (s := S1x2048x1024) ![0, 0, 0] S1x2048x1024.size inb_S1x2048x1024_S1x2048x1024_0_0_0

/-- The slab's product with the batch's matrix, as the block of output 2. -/
def out2_2 (x0 : Vec F S1x2048x256 .bf16) (x1 : Vec F S1x256x1024 .bf16) : Vec F S1x2048x1024 .f32 :=
  View.canon [⟨r2_2, k2_pay1 (View.ld x0 r2_0) (View.ld x1 r2_1)⟩]

theorem cover2_2 (p0 : Vec F S1x2048x1024 .f32) (y : S1x2048x1024.Idx) :
    ∃ pc ∈ ([⟨r2_2, p0⟩] : List (View.Piece (Elt F) S1x2048x1024 .f32)), y ∈ pc.1.set :=
  View.cover_of_tiled [⟨r2_2, p0⟩] S1x2048x1024.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨_ + 3, h⟩ => absurd h (Nat.not_lt.2 (Nat.le_add_left _ _))
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## Call 1 -/

/-- Window `w`'s block at grid point `t` of call 1, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The accumulator: a whole scoped buffer of the call's own. -/
abbrev scM1 : Memref sig .tc .vmem S256x1024 .f32 := Memref.whole cc1_scratch0

/-- The accumulator after grid point `n`: the slab's `phiᵀ · g` added to zero at the first slab of a batch
    (`n % 4 = 0`), to what the point before left otherwise. -/
def acc1 (c : Dev nD) : (n : ℕ) → n < cfg1.N → Vec F S256x1024 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 4 = 0) :
    acc1 V c t.val t.isLt = k1_pay2 (iblk1 V c 0 t) (iblk1 V c 1 t) k1_pay1 := by
  obtain ⟨n, hn⟩ := t
  cases n with
  | zero => rfl
  | succ n => exact (if_pos h0)

theorem acc1_next (c : Dev nD) (t : Fin cfg1.N) (h0 : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (if_neg h0)

/-- The other scoped buffers of the core (every call's staging buffers), each at some contents. -/
abbrev rest1 (c : Dev nD) : sProp 𝕄 :=
  Pipeline.scopedRestBut (Ix := Unit) (Name := ℕ) (U := UR sig nD τ) (Lvl := ℕ) (Val := Elt F) spec1 c [cc1_scratch0]

/-- The call's invariant before position `n`: at the start every scoped buffer at anything; afterwards the
    accumulator at what the point before left in it. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 c) ∗ (∃ r, prngReg c r)) := by
  cases n with
  | zero => exact absurd rfl hz
  | succ n => rfl

/-- The start invariant with the accumulator split off the other scoped buffers. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]
  try rfl

/-- The pipeline data of call 1: inputs keep their blocks; the output block is the accumulator (narrowed)
    — meaningful at the last slab of a batch, where it is stored and written back; the invariant carries the
    accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
    | ⟨_ + 3, h⟩ => absurd h (Nat.not_lt.2 (Nat.le_add_left _ _))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Hand

end
-- ==== Proof.Kernel.Run.lean ====
/-
  The whole program as a run of four pieces — the host lines that stack, narrow and transpose the weights, then the
  three kernel calls —, with the contents of every buffer named at each boundary: a call's arrays end at what its
  write-backs leave, every other buffer as the call found it. From it: every execution ends, faults nowhere, keeps
  the four argument arrays, and leaves the result array at what the last call's write-backs fold to.
  Stated for any float instance, under the three calls' body obligations as hypotheses.
-/
import proofs.«146318_j26594437496900_2_alg».proof.Proof.Gen.Kernel.Launch
import proofs.«146318_j26594437496900_2_alg».proof.Proof.Gen.Kernel.Skeleton
import proofs.«146318_j26594437496900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«146318_j26594437496900_2_alg».proof.Proof.Gen.Kernel.Regions
import proofs.«146318_j26594437496900_2_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the run needs of the three kernel bodies. -/
structure Bodies : Prop where
  b0 : ∀ (V : (c : Dev nD) → (b : Ref sig .tc) → Buf (Elt F) ((c : Thread nD τ).loc b)) (c : Dev nD),
    BodyObligation (dat0 (F := F) V c) (defs₀ (F := F)) Variants.none () Set.univ
  b1 : ∀ (V : (c : Dev nD) → (b : Ref sig .tc) → Buf (Elt F) ((c : Thread nD τ).loc b)) (c : Dev nD),
    BodyObligation (dat1 (F := F) V c) (defs₀ (F := F)) Variants.none () Set.univ
  b2 : ∀ (V : (c : Dev nD) → (b : Ref sig .tc) → Buf (Elt F) ((c : Thread nD τ).loc b)) (c : Dev nD),
    BodyObligation (dat2 (F := F) V c) (defs₀ (F := F)) Variants.none () Set.univ
  hin1 : ∀ (V : (c : Dev nD) → (b : Ref sig .tc) → Buf (Elt F) ((c : Thread nD τ).loc b)) (c : Dev nD),
    (Pipeline.ΦA spec1 c : sProp 𝕄) ⊢ (dat1 (F := F) V c).Φ 0
  hout1 : ∀ (V : (c : Dev nD) → (b : Ref sig .tc) → Buf (Elt F) ((c : Thread nD τ).loc b)) (c : Dev nD),
    (dat1 (F := F) V c).Φ (Fin.last cfg1.N) ⊢ (Pipeline.ΦA spec1 c : sProp 𝕄)

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host lines (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its arrays at what the write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### No piece writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-- The result array at the end: what call 2's write-backs leave. -/
theorem W4_result (c : Dev nD) : W4 m ρ c (Proc.devRef .tc main_v5) = (dat2 (V3 m ρ) c).arrAt 2 cfg2.N :=
  W4_arr m ρ c 2

/-! ### What each call is entered with, read back through the boundaries -/

theorem V3_v3_0 (c : Dev nD) : V3 m ρ c main_v3_0 = (dat0 (V1 m ρ) c).arrAt 2 cfg0.N :=
  (W3_of_ne m ρ c main_v3_0 (by decide)).trans (W2_arr m ρ c 2)
theorem V3_v4 (c : Dev nD) : V3 m ρ c main_v4 = (dat1 (V2 m ρ) c).arrAt 2 cfg1.N := W3_arr m ρ c 2
theorem V2_v3_1 (c : Dev nD) : V2 m ρ c main_v3_1 = (dat0 (V1 m ρ) c).arrAt 3 cfg0.N := W2_arr m ρ c 3
theorem V2_v3_2 (c : Dev nD) : V2 m ρ c main_v3_2 = (dat0 (V1 m ρ) c).arrAt 4 cfg0.N := W2_arr m ρ c 4
theorem V1_arg0 (c : Dev nD) : V1 m ρ c main_arg0 = m ((c : Thread nD τ).loc main_arg0) :=
  StableHlo.after_of_writes_sub hostOps0 _ hostOps0_writes (r := main_arg0) (by decide)

/-! ## The pipeline data family and the thread state -/

abbrev adm : (p : Fin 3) → (pcfgs (F := F) p).Adm := fun p => (cfgs p).toPCfg_adm
/-- Every call's data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every piece: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as pieces of the run -/

variable (hB : Bodies (F := F))

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hB.b0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hB.b1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    have h := hB.hin1 (V2 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V2 m ρ) c).Φ (Fin.last cfg1.N) from rfl]
    have h := hB.hout1 (V2 m ρ) c
    unfold Pipeline.ΦA at h
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hB.b2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ hB),
    .region (reg1 m ρ hB),
    .region (reg2 m ρ hB) ]
theorem main_run (c : Dev nD) : main (F := F) c = Pipeline.Seg.run (segs m ρ hB) := (main_chain c).trans (by chain_rfl)

include hB

set_option backward.isDefEq.respectTransparency.types false in
/-- Every execution ends, nothing faults; the result array ends at what call 2's write-backs fold to and the four
    argument arrays as launched. -/
theorem run_all : θ_run defs (onTc (τ := τ) (main (F := F))) ⟨m, fun _ => 0, ρ⟩ (fun r => ∀ c : Dev nD,
      r.2.mem ((c.tc : Thread nD τ).loc main_v5) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ hB)
    (fun c Q => by rw [main_run m ρ hB c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame claim's post: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_all m ρ hB)

end Cert.Kernel.Hand

end
-- ==== Proof.Kernel.Body0.lean ====
/-
  The body of call 0 (projection) at a generic grid point.

  The body reads its two input blocks whole (a 512-row slab and the whole weight matrix); then, for each of
  the three output blocks in turn, it reads the block (a value it never uses) and stores one column range of
  the slab's product over the whole block. So on whole staging buffers holding the inputs' blocks it leaves
  the inputs as they were and each output buffer at its one whole-block store read back: `out0_2`, `out0_3`
  and `out0_4` of the two blocks. The pipeline's invariant and what the core owes pass through unread.
-/
import proofs.«146318_j26594437496900_2_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging buffers: the two inputs' at contents `x0`, `x1` and the three outputs' at
    anything. It runs to the continuation holding the inputs' as they were and the outputs' at `out0_2 x0 x1`,
    `out0_3 x0 x1`, `out0_4 x0 x1`: each output's single store covers its whole block, so what is read back
    is the stored column range wherever one looks. -/
theorem sound_kernel0 (c : Dev nD) (E : Set ℕ) (i : grid0.Coords)
    (arg0 : Memref sig .tc .vmem S1x512x1024 .f32) (harg0 : arg0.IsWhole)
    (arg1 : Memref sig .tc .vmem S1024x1536 .bf16) (harg1 : arg1.IsWhole)
    (arg2 : Memref sig .tc .vmem S1x512x256 .bf16) (harg2 : arg2.IsWhole)
    (arg3 : Memref sig .tc .vmem S1x512x256 .bf16) (harg3 : arg3.IsWhole)
    (arg4 : Memref sig .tc .vmem S1x512x1024 .bf16) (harg4 : arg4.IsWhole)
    (x0 : Vec F S1x512x1024 .f32) (x1 : Vec F S1024x1536 .bf16) (K : PUnit → sProp 𝕄) :
    iprop(owns (c : Thread nD τ) arg0 fullShare x0 ∗ owns (c : Thread nD τ) arg1 fullShare x1
        ∗ (∃ d, owns (c : Thread nD τ) arg2 fullShare d)
        ∗ (∃ d, owns (c : Thread nD τ) arg3 fullShare d)
        ∗ (∃ d, owns (c : Thread nD τ) arg4 fullShare d)
        ∗ (iprop(owns (c : Thread nD τ) arg0 fullShare x0 ∗ owns (c : Thread nD τ) arg1 fullShare x1
            ∗ owns (c : Thread nD τ) arg2 fullShare (out0_2 x0 x1)
            ∗ owns (c : Thread nD τ) arg3 fullShare (out0_3 x0 x1)
            ∗ owns (c : Thread nD τ) arg4 fullShare (out0_4 x0 x1)) -∗ K ⟨⟩))
      ⊢ wp frame (wpE (defs₀ (F := F)) Variants.none c none) E
          (cc0__proj_kernel i arg0 harg0 arg1 harg1 arg2 harg2 arg3 harg3 arg4 harg4) K := by
  rw [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_2 _)
  iexists _; isplitr
  swap; · iexact H4
  ipureintro
  exact View.read_writes_eq_canon _ _ _ (cover0_4 _)

/-! ## The body obligation, at a generic point -/

/-- What the body is called with at point `t`: the invariant, what the core owes, and each window's current
    staging buffer at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns: the same with each buffer at what it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant
    and what the core owes do not change across the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for call 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Body1.lean ====
/-
  The body obligation of call 1 (the reduction): for each batch, four 1024-row slabs; a scratch accumulator is
  zeroed at the first slab of a batch, gains the slab's `phiᵀ · g` at every slab, and at the fourth its narrowing
  is stored as the output block, which is written back there and only there.

  A grid point `t` is slab `t % 4` of batch `t / 4`. Three cases of the body's two conditionals:
  first slab (`t % 4 = 0`): the accumulator is stored with zeros, read back, and stored with the slab's product added;
  middle slabs (`t % 4 ∈ {1, 2}`): the accumulator is read and stored with the slab's product added;
  last slab (`t % 4 = 3`): as a middle slab, then the accumulator is read back and the output block stored with its narrowing.
  Off the last slab the output window is idle: its buffer is handed back as received.

  The call's invariant carries the accumulator from point to point at `acc1`: at anything before the first point,
  afterwards at what the point before left.
-/
import proofs.«146318_j26594437496900_2_alg».proof.Proof.Kernel.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The first conditional's condition (grid coordinate 1 is zero), as the body computes it. -/
abbrev cond1_0 (i : grid1.Coords) : Prop := (Scalar.cmpi .ne (Scalar.extui (Scalar.cmpi .eq (BitVec.ofNat 32 (i 1).val) 0#32)) 0#32) = 1#1
/-- It holds at the points ≡ 0 (mod 4): the first slab of a batch. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (grid coordinate 1 is three). -/
abbrev cond1_1 (i : grid1.Coords) : Prop := k1_cond2 i = 1#1
/-- It holds at the points ≡ 3 (mod 4): the last slab of a batch. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Whole-block loads and stores

Every load and store of the body goes through the whole-shape rectangle at zero offsets of its buffer. Stated over any
shape: such a store, made last, leaves its payload whatever the buffer held and whatever was stored before; such a load
from a whole buffer reads its contents. -/

theorem hz2_c1 : (![0, 0] : Fin 2 → Nat) = fun _ => 0 := funext fun a => by fin_cases a <;> rfl
theorem hz3_c1 : (![0, 0, 0] : Fin 3 → Nat) = fun _ => 0 := funext fun a => by fin_cases a <;> rfl

section Whole

variable {S : Shape} {e : EltTy} {sp : Space}

theorem read_writes_whole_c1 (v : View sig .tc sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero h inb y⟩),
    View.canon_cons_unit_zero h inb w L]

theorem readAt_whole_c1 (m : Memref sig .tc sp S e) (hm : m.IsWhole) {off : Fin S.rank → Nat} (h : off = fun _ => 0)
    (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h inb]

end Whole

/-! ## What the body's stores leave, case by case -/

/-- Off the first slab: the accumulator's one store leaves the slab's product added to what it held. -/
theorem acc_left1 (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (x0 : Vec F S1x1024x256 .bf16) (x1 : Vec F S1x1024x1024 .bf16) (y : Vec F S1x256x1024 .bf16) (xs : Vec F S256x1024 .f32) :
    arg5.view.read (Elt F) (arg5.view.writes (Elt F) (harg5.unread xs)
      [⟨Rect.unit ![0, 0] S256x1024.size inb_S256x1024_S256x1024_0_0,
        k1_pay2 (arg2.view.readAt (Elt F) (Rect.unit ![0, 0, 0] S1x1024x256.size inb_S1x1024x256_S1x1024x256_0_0_0).toLoadRect (harg2.unread x0))
          (arg3.view.readAt (Elt F) (Rect.unit ![0, 0, 0] S1x1024x1024.size inb_S1x1024x1024_S1x1024x1024_0_0_0).toLoadRect (harg3.unread x1))
          (arg5.view.readAt (Elt F) (Rect.unit ![0, 0] S256x1024.size inb_S256x1024_S256x1024_0_0).toLoadRect (harg5.unread xs))⟩])
      = k1_pay2 x0 x1 xs := by
  rw [read_writes_whole_c1 _ _ hz2_c1, readAt_whole_c1 arg2 harg2 hz3_c1, readAt_whole_c1 arg3 harg3 hz3_c1, readAt_whole_c1 arg5 harg5 hz2_c1]

/-- At the first slab: the accumulator is zeroed, read back, and its second store leaves the slab's product added to zero. -/
theorem acc_left_first1 (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (x0 : Vec F S1x1024x256 .bf16) (x1 : Vec F S1x1024x1024 .bf16) (y : Vec F S1x256x1024 .bf16) (xs : Vec F S256x1024 .f32) :
    arg5.view.read (Elt F) (arg5.view.writes (Elt F) (harg5.unread xs)
      [⟨Rect.unit ![0, 0] S256x1024.size inb_S256x1024_S256x1024_0_0,
        k1_pay2 (arg2.view.readAt (Elt F) (Rect.unit ![0, 0, 0] S1x1024x256.size inb_S1x1024x256_S1x1024x256_0_0_0).toLoadRect (harg2.unread x0))
          (arg3.view.readAt (Elt F) (Rect.unit ![0, 0, 0] S1x1024x1024.size inb_S1x1024x1024_S1x1024x1024_0_0_0).toLoadRect (harg3.unread x1))
          (arg5.view.readCov [⟨Rect.unit ![0, 0] S256x1024.size inb_S256x1024_S256x1024_0_0, k1_pay1⟩] (Rect.unit ![0, 0] S256x1024.size inb_S256x1024_S256x1024_0_0).toLoadRect)⟩,
       ⟨Rect.unit ![0, 0] S256x1024.size inb_S256x1024_S256x1024_0_0, k1_pay1⟩])
      = k1_pay2 x0 x1 k1_pay1 := by
  rw [read_writes_whole_c1 _ _ hz2_c1, readAt_whole_c1 arg2 harg2 hz3_c1, readAt_whole_c1 arg3 harg3 hz3_c1, View.readCov_unit_zero _ hz2_c1]

/-- At the last slab: the output block's one store leaves the narrowing of the accumulator as just updated and read back. -/
theorem out_left_last1 (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (x0 : Vec F S1x1024x256 .bf16) (x1 : Vec F S1x1024x1024 .bf16) (y : Vec F S1x256x1024 .bf16) (xs : Vec F S256x1024 .f32) :
    arg4.view.read (Elt F) (arg4.view.writes (Elt F) (harg4.unread y)
      [⟨Rect.unit ![0, 0, 0] S1x256x1024.size inb_S1x256x1024_S1x256x1024_0_0_0,
        k1_pay3 (arg5.view.readCov
          [⟨Rect.unit ![0, 0] S256x1024.size inb_S256x1024_S256x1024_0_0,
            k1_pay2 (arg2.view.readAt (Elt F) (Rect.unit ![0, 0, 0] S1x1024x256.size inb_S1x1024x256_S1x1024x256_0_0_0).toLoadRect (harg2.unread x0))
              (arg3.view.readAt (Elt F) (Rect.unit ![0, 0, 0] S1x1024x1024.size inb_S1x1024x1024_S1x1024x1024_0_0_0).toLoadRect (harg3.unread x1))
              (arg5.view.readAt (Elt F) (Rect.unit ![0, 0] S256x1024.size inb_S256x1024_S256x1024_0_0).toLoadRect (harg5.unread xs))⟩]
          (Rect.unit ![0, 0] S256x1024.size inb_S256x1024_S256x1024_0_0).toLoadRect)⟩])
      = k1_pay3 (k1_pay2 x0 x1 xs) := by
  rw [read_writes_whole_c1 _ _ hz3_c1, View.readCov_unit_zero _ hz2_c1, readAt_whole_c1 arg2 harg2 hz3_c1, readAt_whole_c1 arg3 harg3 hz3_c1, readAt_whole_c1 arg5 harg5 hz2_c1]

/-! ## The body on any whole staging memrefs, case by case

The inputs at contents `x0`, `x1`, the output buffer at `y`, the accumulator at `xs`: the body runs to the
continuation holding the inputs as they were and the two others at what the case leaves. -/

set_option maxHeartbeats 2000000 in
/-- A middle slab (neither conditional taken): the accumulator gains the slab's product; the output buffer is untouched. -/
theorem run1_B (c : Dev nD) (i : grid1.Coords)
    (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (hc0 : ¬cond1_0 i) (hc1 : ¬cond1_1 i)
    (x0 : Vec F S1x1024x256 .bf16) (x1 : Vec F S1x1024x1024 .bf16) (y : Vec F S1x256x1024 .bf16) (xs : Vec F S256x1024 .f32)
    (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (y) ∗ owns (c : Thread nD τ) arg5 fullShare (k1_pay2 x0 x1 xs)) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  exact acc_left1 arg2 harg2 arg3 harg3 arg4 harg4 arg5 harg5 x0 x1 y xs

set_option maxHeartbeats 2000000 in
/-- The first slab of a batch (first conditional taken): the accumulator is zeroed, read back, and gains the slab's
    product — whatever it held; the output buffer is untouched. -/
theorem run1_A (c : Dev nD) (i : grid1.Coords)
    (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (hc0 : cond1_0 i) (hc1 : ¬cond1_1 i)
    (x0 : Vec F S1x1024x256 .bf16) (x1 : Vec F S1x1024x1024 .bf16) (y : Vec F S1x256x1024 .bf16) (xs : Vec F S256x1024 .f32)
    (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (y) ∗ owns (c : Thread nD τ) arg5 fullShare (k1_pay2 x0 x1 k1_pay1)) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  exact acc_left_first1 arg2 harg2 arg3 harg3 arg4 harg4 arg5 harg5 x0 x1 y xs

set_option maxHeartbeats 2000000 in
/-- The last slab of a batch (second conditional taken): the accumulator gains the slab's product, is read back, and
    its narrowing is stored as the output block — whatever that buffer held. -/
theorem run1_C (c : Dev nD) (i : grid1.Coords)
    (arg2 : Memref sig .tc .vmem S1x1024x256 .bf16) (harg2 : arg2.IsWhole)
    (arg3 : Memref sig .tc .vmem S1x1024x1024 .bf16) (harg3 : arg3.IsWhole)
    (arg4 : Memref sig .tc .vmem S1x256x1024 .bf16) (harg4 : arg4.IsWhole)
    (arg5 : Memref sig .tc .vmem S256x1024 .f32) (harg5 : arg5.IsWhole)
    (hc0 : ¬cond1_0 i) (hc1 : cond1_1 i)
    (x0 : Vec F S1x1024x256 .bf16) (x1 : Vec F S1x1024x1024 .bf16) (y : Vec F S1x256x1024 .bf16) (xs : Vec F S256x1024 .f32)
    (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (k1_pay2 x0 x1 xs)) ∗ owns (c : Thread nD τ) arg5 fullShare (k1_pay2 x0 x1 xs)) -∗ K ⟨⟩))
      ⊢ wp frame (wpE (defs₀ (F := F)) Variants.none c none) E (cc1__reduce_kernel i arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    exact out_left_last1 arg2 harg2 arg3 harg3 arg4 harg4 arg5 harg5 x0 x1 y xs
  iexists _; isplitr
  swap; · iexact HS
  ipureintro
  sl_unfold_run_names
  exact acc_left1 arg2 harg2 arg3 harg3 arg4 harg4 arg5 harg5 x0 x1 y xs

/-! ## Where the windows are idle -/

/-- The two inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Off the last slab of a batch the output window is idle (nothing is stored into it), -/
theorem idleAt1_2 : ∀ t : Fin cfg1.N, ¬cond1_1 (grid1.coords t) → cfg1.idle 2 (grid1.coords t) = true := by decide +kernel
/-- and its block is not written back; -/
theorem noFlush1_2 (t : Fin cfg1.N) (h : ¬t.val % 4 = 3) : (cfg1.win 2).flush t = false :=
  Bool.eq_false_iff.mpr fun hf => h ((flush1_2 t).mp hf)
/-- at the last slab it is live. -/
theorem liveAt1_2 : ∀ t : Fin cfg1.N, cond1_1 (grid1.coords t) → cfg1.idle 2 (grid1.coords t) = false := by decide +kernel

/-! ## The staging memrefs at a point -/

abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .bf16 := win1_2.stage (cfg1.slots t 2)
abbrev hs1_2 (t : Fin cfg1.N) : (ms1_2 t).IsWhole := hstage1_2 ((cfg1.slots t 2).cast nbuf1_2)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position in its batch says which
    conditionals are taken; the invariant hands over the accumulator at what the point before left (at anything at
    the very first point) and takes it back with this slab's product added — to zero at the first slab of a batch;
    the output buffer is handed back as received except at the last slab, where it gets the narrowed accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t h1)]
    rw [acc1_first V c t h0]
    by_cases hz : t.val = 0
    · rw [PhiS1_castSucc V c t, PhiS1_zero V c _ _ hz, PhiA1_eq]
      iintro ⟨⟨⟨⟨%ds, HS⟩, HR⟩, Hg⟩, Ho, ⟨%d0, H0⟩, ⟨%d1, H1⟩, ⟨%d2, H2⟩⟩
      iapply (run1_A c (grid1.coords t) (ms1_0 t) (hs1_0 t) (ms1_1 t) (hs1_1 t) (ms1_2 t) (hs1_2 t) scM1 (Memref.isWhole_whole _) hc0 hc1 (iblk1 V c 0 t) (iblk1 V c 1 t) ((dat1 V c).before 2 t d2) ds Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, HR⟩, Hg⟩, Ho, ⟨%d0, H0⟩, ⟨%d1, H1⟩, ⟨%d2, H2⟩⟩
      iapply (run1_A c (grid1.coords t) (ms1_0 t) (hs1_0 t) (ms1_1 t) (hs1_1 t) (ms1_2 t) (hs1_2 t) scM1 (Memref.isWhole_whole _) hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    by_cases h1 : t.val % 4 = 3
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩⟩
      iapply (run1_C c (grid1.coords t) (ms1_0 t) (hs1_0 t) (ms1_1 t) (hs1_1 t) (ms1_2 t) (hs1_2 t) scM1 (Memref.isWhole_whole _) hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t h1)]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _) hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the start invariant back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.Kernel.Body2.lean ====
/-
  The body of call 2 (final product) at a generic grid point.

  The body reads its two input blocks whole, reads the output block (a value it never uses), and stores the
  product of the two inputs over the whole output block. So on whole staging buffers holding the inputs'
  blocks it leaves the inputs as they were and the output buffer at the one whole-block store read back,
  which is `out2_2` of the two blocks. The pipeline's invariant and what the core owes pass through unread.
-/
import proofs.«146318_j26594437496900_2_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's triple -/

set_option maxHeartbeats 1000000 in
/-- The body on whole staging buffers: the two inputs' at contents `x0`, `x1` and the output's at anything.
    It runs to the continuation holding the inputs' as they were and the output's at `out2_2 x0 x1`: the
    single store covers the whole block, so what is read back is the stored product wherever one looks. -/
theorem sound_kernel2 (c : Dev nD) (E : Set ℕ) (i : grid2.Coords)
    (arg0 : Memref sig .tc .vmem S1x2048x256 .bf16) (harg0 : arg0.IsWhole)
    (arg1 : Memref sig .tc .vmem S1x256x1024 .bf16) (harg1 : arg1.IsWhole)
    (arg2 : Memref sig .tc .vmem S1x2048x1024 .f32) (harg2 : arg2.IsWhole)
    (x0 : Vec F S1x2048x256 .bf16) (x1 : Vec F S1x256x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__finalize_kernel i arg0 harg0 arg1 harg1 arg2 harg2) K := by
  rw [cc2__finalize_kernel_eq_skeleton]; unfold cc2__finalize_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The body obligation, at a generic point -/

/-- What the body is called with at point `t`: the invariant, what the core owes, and each window's current
    staging buffer at what it holds before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: the same with each buffer at what it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant
    and what the core owes do not change across the point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for call 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Spec.lean ====
/-
  The mathematics both programs meet in, on the extended reals, with no program in sight.

  `x` is 8 batches of 4096 rows of 1024 features; `wθ`, `wφ` (256×1024) and `wg` (1024×1024) are the
  three projection matrices, stored row = output feature. With `proj x w b n l = ∑ f, x b n f · w l f`:

  * the reference computes  `∑ m, ((∑ l, θ b n l · φ b m l) · s) · g b m o`  (attention weights first);
  * the kernel computes     `∑ l, (θ b n l · s) · M b l o`  with  `M b l o`  the sum over the 4096 rows `m` of
    `φ b m l · g b m o`, accumulated slab by slab (four slabs of 1024 rows, starting from zero).

  `s` is the scale 1/32, the same binary word in both programs.
-/
import Idealize.ShloMosaic.PureOps.Ideal
import Idealize.ShloMosaic.Lib.ValueIdx

noncomputable section

open scoped BigOperators

namespace Cert.Spec

open Idealize.ShloMosaic Idealize.ShloMosaic.ValueIdx

/-- The scale, as both programs spell it: the f32 word of 1/32. -/
def s : EReal := Ideal.ofBits .f32 0x3D000000#32

/-- A rank-3 array read by coordinates. -/
abbrev cur3 {n0 n1 n2 : Nat} (a : (⟨3, ![n0, n1, n2]⟩ : Shape).Idx → EReal) : Fin n0 → Fin n1 → Fin n2 → EReal :=
  fun i j k => a (ix3 i j k)
/-- A rank-2 array read by coordinates. -/
abbrev cur2 {n0 n1 : Nat} (a : (⟨2, ![n0, n1]⟩ : Shape).Idx → EReal) : Fin n0 → Fin n1 → EReal :=
  fun i j => a (ix2 i j)

/-- A row of `x` against a row of a weight matrix. -/
def proj {L : Nat} (x : Fin 8 → Fin 4096 → Fin 1024 → EReal) (w : Fin L → Fin 1024 → EReal)
    (b : Fin 8) (n : Fin 4096) (l : Fin L) : EReal :=
  ∑ f : Fin 1024, x b n f * w l f

/-- The reference's result. -/
def refOut (x : Fin 8 → Fin 4096 → Fin 1024 → EReal) (wθ wφ : Fin 256 → Fin 1024 → EReal) (wg : Fin 1024 → Fin 1024 → EReal)
    (b : Fin 8) (n : Fin 4096) (o : Fin 1024) : EReal :=
  ∑ m : Fin 4096, ((∑ l : Fin 256, proj x wθ b n l * proj x wφ b m l) * s) * proj x wg b m o

/-- Row `r` of slab `k` (of four slabs of 1024 rows). -/
def slabRow (k : Fin 4) (r : Fin 1024) : Fin 4096 := ⟨1024 * k.val + r.val, by omega⟩

/-- One slab's contribution to a sum over rows. -/
def slabSum (p g : Fin 4096 → EReal) (k : Fin 4) : EReal :=
  ∑ r : Fin 1024, p (slabRow k r) * g (slabRow k r)

/-- The four slabs accumulated from zero, in the kernel's order. -/
def accM (p g : Fin 4096 → EReal) : EReal :=
  (((0 + slabSum p g 0) + slabSum p g 1) + slabSum p g 2) + slabSum p g 3

/-- The kernel's per-batch matrix. -/
def mat (x : Fin 8 → Fin 4096 → Fin 1024 → EReal) (wφ : Fin 256 → Fin 1024 → EReal) (wg : Fin 1024 → Fin 1024 → EReal)
    (b : Fin 8) (l : Fin 256) (o : Fin 1024) : EReal :=
  accM (fun m => proj x wφ b m l) (fun m => proj x wg b m o)

/-- The kernel's result. -/
def kerOut (x : Fin 8 → Fin 4096 → Fin 1024 → EReal) (wθ wφ : Fin 256 → Fin 1024 → EReal) (wg : Fin 1024 → Fin 1024 → EReal)
    (b : Fin 8) (n : Fin 4096) (o : Fin 1024) : EReal :=
  ∑ l : Fin 256, (proj x wθ b n l * s) * mat x wφ wg b l o

/-- The three weight matrices stacked (rows 0..255, 256..511, 512..1535), read at row `j`. -/
def wcat (wθ wφ : Fin 256 → Fin 1024 → EReal) (wg : Fin 1024 → Fin 1024 → EReal) (j : Fin 1536) (f : Fin 1024) : EReal :=
  if h : j.val < 256 then wθ ⟨j.val, h⟩ f
  else if h' : j.val < 512 then wφ ⟨j.val - 256, by omega⟩ f
  else wg ⟨j.val - 512, by omega⟩ f

/-! ## The kernel's intermediate arrays, as whole-array functions (what each call leaves) -/

abbrev A3 (a b c : Nat) := (⟨3, ![a, b, c]⟩ : Shape).Idx → EReal
abbrev A2 (a b : Nat) := (⟨2, ![a, b]⟩ : Shape).Idx → EReal

/-- Column `l` of the first range (0..255) of the stacked weights. -/
def j0 (l : Fin 256) : Fin 1536 := ⟨l.val, by omega⟩
/-- Column `l` of the second range (256..511). -/
def j1 (l : Fin 256) : Fin 1536 := ⟨256 + l.val, by omega⟩
/-- Column `o` of the third range (512..1535). -/
def j2 (o : Fin 1024) : Fin 1536 := ⟨512 + o.val, by omega⟩

/-- A row of `x` against column `j` of the transposed stacked weights `wt` (1024 × 1536). -/
def y (x : A3 8 4096 1024) (wt : A2 1024 1536) (b : Fin 8) (n : Fin 4096) (j : Fin 1536) : EReal :=
  ∑ f : Fin 1024, x (ix3 b n f) * wt (ix2 f j)

/-- Call 0's first output: the scaled projection. -/
def G0_2 (x : A3 8 4096 1024) (wt : A2 1024 1536) : A3 8 4096 256 := fun i => y x wt (i 0) (i 1) (j0 (i 2)) * s
/-- Call 0's second output. -/
def G0_3 (x : A3 8 4096 1024) (wt : A2 1024 1536) : A3 8 4096 256 := fun i => y x wt (i 0) (i 1) (j1 (i 2))
/-- Call 0's third output. -/
def G0_4 (x : A3 8 4096 1024) (wt : A2 1024 1536) : A3 8 4096 1024 := fun i => y x wt (i 0) (i 1) (j2 (i 2))
/-- Call 1's output: per batch, the rows' products accumulated slab by slab. -/
def G1 (p : A3 8 4096 256) (g : A3 8 4096 1024) : A3 8 256 1024 :=
  fun i => accM (fun m => p (ix3 (i 0) m (i 1))) (fun m => g (ix3 (i 0) m (i 2)))
/-- Call 2's output. -/
def G2 (t : A3 8 4096 256) (mm : A3 8 256 1024) : A3 8 4096 1024 :=
  fun i => ∑ l : Fin 256, t (ix3 (i 0) (i 1) l) * mm (ix3 (i 0) l (i 2))
/-- The transposed stacked weights, from the three matrices. -/
def wtOf (w1 w2 : A2 256 1024) (w3 : A2 1024 1024) : A2 1024 1536 :=
  fun i => wcat (cur2 w1) (cur2 w2) (cur2 w3) (i 1) (i 0)

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.Val0.lean ====
/-
  What call 0 (the projection) leaves in its three output arrays, as whole-array functions, and what the host prefix
  leaves in the weights' buffer — all on the extended reals, where a change of float format is the identity and a
  matrix product into a zero accumulator is a plain sum.

  Call 0 runs over 64 points; point `t` handles slab `t % 8` (512 rows) of batch `t / 8`. Its body multiplies the
  slab of `x` (512 × 1024) by the whole transposed stacked weight matrix (1024 × 1536) and stores three column
  ranges of the product: columns 0..255 scaled by 1/32, columns 256..511, and columns 512..1535. So entry
  `(b, n, l)` of each output is the row `x[b, n, ·]` against one column of the weights: the sum over the 1024 features.

  The road: first each stored piece at an index, over variable blocks (the slab's product at `(r, j)` is the row
  against the column; a column slice shifts the column; the reshapes between `[512, ·]` and `[1, 512, ·]` keep the
  coordinates); then each staged input block read where it lies in its array (row `r` of the slab at point `t` is
  row `512 * (t % 8) + r` of batch `t / 8`; the weights' block is the whole matrix); so what point `t` writes back is
  block `t` of the whole-array function, the 64 blocks cover the array, and the array ends holding the function.

  The host prefix stacks the three weight matrices along the rows (row ranges 0..255, 256..511, 512..1535), rounds
  (the identity here) and transposes: entry `(f, j)` is feature `f` of stacked row `j`.
-/
import proofs.«146318_j26594437496900_2_alg».proof.Proof.KernelIdeal.Data
import proofs.«146318_j26594437496900_2_alg».proof.Proof.Spec
import proofs.«146318_j26594437496900_2_alg».proof.Proof.LibPlainDot
import proofs.«146318_j26594437496900_2_alg».proof.Proof.LibCat
import Idealize.ShloMosaic.Lib.Pipeline.Value
import Idealize.ShloMosaic.Lib.ValueIdx
import Idealize.ShloMosaic.Lib.ValueLayout

set_option maxRecDepth 16384

noncomputable section

namespace Cert.KernelIdeal.Val0

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

/-! ## The slab's product and the three stored pieces, at an index -/

/-- The slab's product with the whole weight matrix at row `r`, column `j`: the row against the column. -/
theorem pay1_apply (x0 : FVec Ideal S1x512x1024 .f32) (x1 : FVec Ideal S1024x1536 .bf16) (r : Fin 512) (j : Fin 1536) :
    k0_pay1 x0 x1 (ix2 r j) = ∑ f : Fin 1024, x0 (ix3 (0 : Fin 1) r f) * x1 (ix2 f j) := by
  unfold k0_pay1
  refine (Cert.PlainDot.matmul_zero_apply 512 1024 1536 (φ₁ := .bf16) (φ₂ := .bf16) none _ _ (ix2 r j)).trans ?_
  refine Finset.sum_congr rfl fun f _ => ?_
  refine congrArg₂ (· * ·) ?_ ?_
  · exact shapeCast_1ab_ab_apply x0 _ r f
  · exact congrFun (shapeCast_self x1 _) (ix2 f j)

/-- Output 3's stored piece at `(u, r, l)`: column `256 + l` of the slab's product, where the slab's row `r` is row
    `n` of batch `b` of the whole array and the weights are the whole matrix. -/
theorem pay3_entry (x0 : FVec Ideal S1x512x1024 .f32) (x1 : FVec Ideal S1024x1536 .bf16)
    (X : Cert.Spec.A3 8 4096 1024) (wt : Cert.Spec.A2 1024 1536)
    (b : Fin 8) (n : Fin 4096) (u : Fin 1) (r : Fin 512) (l : Fin 256)
    (hx0 : ∀ f : Fin 1024, x0 (ix3 (0 : Fin 1) r f) = X (ix3 b n f))
    (hx1 : ∀ (f : Fin 1024) (j : Fin 1536), x1 (ix2 f j) = wt (ix2 f j)) :
    k0_pay3 (F := Ideal) x0 x1 (ix3 u r l) = Cert.Spec.G0_3 X wt (ix3 b n l) := by
  unfold k0_pay3
  refine (shapeCast_ab_1ab_apply _ _ u r l).trans ?_
  show extractStridedSlice S512x256 ![0, 256] (k0_pay1 (F := Ideal) x0 x1) slices_S512x1536_o0_256_S512x256 (ix2 r l) = _
  refine (slice2_axis1_apply 256 (k0_pay1 (F := Ideal) x0 x1) slices_S512x1536_o0_256_S512x256 r l (Cert.Spec.j1 l) rfl).trans ?_
  refine (pay1_apply x0 x1 r (Cert.Spec.j1 l)).trans ?_
  show _ = Cert.Spec.y X wt b n (Cert.Spec.j1 l)
  unfold Cert.Spec.y
  exact Finset.sum_congr rfl fun f _ => by rw [hx0 f, hx1 f (Cert.Spec.j1 l)]

/-- Output 4's stored piece at `(u, r, o)`: column `512 + o` of the slab's product. -/
theorem pay4_entry (x0 : FVec Ideal S1x512x1024 .f32) (x1 : FVec Ideal S1024x1536 .bf16)
    (X : Cert.Spec.A3 8 4096 1024) (wt : Cert.Spec.A2 1024 1536)
    (b : Fin 8) (n : Fin 4096) (u : Fin 1) (r : Fin 512) (o : Fin 1024)
    (hx0 : ∀ f : Fin 1024, x0 (ix3 (0 : Fin 1) r f) = X (ix3 b n f))
    (hx1 : ∀ (f : Fin 1024) (j : Fin 1536), x1 (ix2 f j) = wt (ix2 f j)) :
    k0_pay4 (F := Ideal) x0 x1 (ix3 u r o) = Cert.Spec.G0_4 X wt (ix3 b n o) := by
  unfold k0_pay4
  refine (shapeCast_ab_1ab_apply _ _ u r o).trans ?_
  show extractStridedSlice S512x1024 ![0, 512] (k0_pay1 (F := Ideal) x0 x1) slices_S512x1536_o0_512_S512x1024 (ix2 r o) = _
  refine (slice2_axis1_apply 512 (k0_pay1 (F := Ideal) x0 x1) slices_S512x1536_o0_512_S512x1024 r o (Cert.Spec.j2 o) rfl).trans ?_
  refine (pay1_apply x0 x1 r (Cert.Spec.j2 o)).trans ?_
  show _ = Cert.Spec.y X wt b n (Cert.Spec.j2 o)
  unfold Cert.Spec.y
  exact Finset.sum_congr rfl fun f _ => by rw [hx0 f, hx1 f (Cert.Spec.j2 o)]

/-- Output 2's stored piece at `(u, r, l)`: column `l` of the slab's product, times the scale 1/32. -/
theorem pay2_entry (x0 : FVec Ideal S1x512x1024 .f32) (x1 : FVec Ideal S1024x1536 .bf16)
    (X : Cert.Spec.A3 8 4096 1024) (wt : Cert.Spec.A2 1024 1536)
    (b : Fin 8) (n : Fin 4096) (u : Fin 1) (r : Fin 512) (l : Fin 256)
    (hx0 : ∀ f : Fin 1024, x0 (ix3 (0 : Fin 1) r f) = X (ix3 b n f))
    (hx1 : ∀ (f : Fin 1024) (j : Fin 1536), x1 (ix2 f j) = wt (ix2 f j)) :
    k0_pay2 (F := Ideal) x0 x1 (ix3 u r l) = Cert.Spec.G0_2 X wt (ix3 b n l) := by
  unfold k0_pay2
  refine (shapeCast_ab_1ab_apply _ _ u r l).trans ?_
  show extractStridedSlice S512x256 ![0, 0] (k0_pay1 (F := Ideal) x0 x1) slices_S512x1536_o0_0_S512x256 (ix2 r l) * Cert.Spec.s
      = Cert.Spec.y X wt b n (Cert.Spec.j0 l) * Cert.Spec.s
  refine congrArg (· * Cert.Spec.s) ?_
  refine (slice2_axis1_apply 0 (k0_pay1 (F := Ideal) x0 x1) slices_S512x1536_o0_0_S512x256 r l (Cert.Spec.j0 l) (Nat.zero_add _).symm).trans ?_
  refine (pay1_apply x0 x1 r (Cert.Spec.j0 l)).trans ?_
  unfold Cert.Spec.y
  exact Finset.sum_congr rfl fun f _ => by rw [hx0 f, hx1 f (Cert.Spec.j0 l)]

/-! ## From blocks to the arrays -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: point `t` is slab `t % 8` of batch `t / 8` for the rows of `x` and for the
    three outputs; the weights' block is always the whole matrix. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 2) = 0 ∧ win0_1.index t (1 : Fin 2) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0) :=
  (by decide +kernel : ∀ t : Fin grid0.N, _)

/-- Row `r` of the slab of `x` staged at point `t` is row `512 * (t % 8) + r` of batch `t / 8`. -/
theorem xblk_apply (c : Dev nD) (t : Fin cfg0.N) (b : Fin 8) (n : Fin 4096) (r : Fin 512) (f : Fin 1024)
    (hb : b.val = t.val / 8) (hn : n.val = 512 * (t.val % 8) + r.val) :
    (iblk0 V c 0 t : FVec Ideal S1x512x1024 .f32) (ix3 (0 : Fin 1) r f) = (V c main_arg0 : Cert.Spec.A3 8 4096 1024) (ix3 b n f) := by
  obtain ⟨⟨e0, e1, e2⟩, -⟩ := idx_facts t
  unfold iblk0
  show (V c main_arg0 : Cert.Spec.A3 8 4096 1024) (((cfg0.win 0).blk t).view.emb (ix3 (0 : Fin 1) r f)) = _
  refine congrArg (V c main_arg0 : Cert.Spec.A3 8 4096 1024) (funext fun a => Fin.ext ?_)
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 1024 + 1 * f.val = f.val; omega

/-- The weights' block staged at any point is the whole matrix. -/
theorem wblk_apply (c : Dev nD) (t : Fin cfg0.N) (f : Fin 1024) (j : Fin 1536) :
    (iblk0 V c 1 t : FVec Ideal S1024x1536 .bf16) (ix2 f j) = (V c main_v2 : Cert.Spec.A2 1024 1536) (ix2 f j) := by
  obtain ⟨-, ⟨e0, e1⟩, -⟩ := idx_facts t
  unfold iblk0
  show (V c main_v2 : Cert.Spec.A2 1024 1536) (((cfg0.win 1).blk t).view.emb (ix2 f j)) = _
  refine congrArg (V c main_v2 : Cert.Spec.A2 1024 1536) (funext fun a => Fin.ext ?_)
  match a with
  | ⟨0, _⟩ => show win0_1.index t (0 : Fin 2) * 1024 + 1 * f.val = f.val; omega
  | ⟨1, _⟩ => show win0_1.index t (1 : Fin 2) * 1536 + 1 * j.val = j.val; omega

/-! ### Output 3 -/

/-- What point `t` writes back to output 3 is block `t` of the whole-array function. -/
theorem flushed3_eq (c : Dev nD) (t : Fin cfg0.N) :
    (dat0 (F := Ideal) V c).flushed 3 t
      = ((cfg0.win 3).blk t).view.read (Elt Ideal) (Cert.Spec.G0_3 (V c main_arg0) (V c main_v2)) := by
  show (cfg0.win 3).cut (grid0.coords t) ((dat0 (F := Ideal) V c).after 3 t) = _
  rw [after0_3]
  unfold out0_3
  rw [View.canon_unit_zero hz3]
  simp only [View.ld_unit_zero (S := S1x512x1024) hz3, View.ld_unit_zero (S := S1024x1536) hz2]
  obtain ⟨-, -, -, ⟨e0, e1, e2⟩, -⟩ := idx_facts t
  have hN : cfg0.N = 64 := N_0
  have ht : t.val < 64 := hN ▸ t.isLt
  funext j
  have hj0 : (j 0).val < 1 := (j 0).isLt
  have hj1 : (j 1).val < 512 := (j 1).isLt
  have hj2 : (j 2).val < 256 := (j 2).isLt
  have hL : (cfg0.win 3).xinj (grid0.coords t) j
      = ix3 (⟨(j 0).val, hj0⟩ : Fin 1) (⟨(j 1).val, hj1⟩ : Fin 512) (⟨(j 2).val, hj2⟩ : Fin 256) :=
    funext fun a => by
      match a with
      | ⟨0, _⟩ => rfl
      | ⟨1, _⟩ => rfl
      | ⟨2, _⟩ => rfl
  have hR : ((cfg0.win 3).blk t).view.emb j
      = ix3 (⟨t.val / 8, by omega⟩ : Fin 8) (⟨512 * (t.val % 8) + (j 1).val, by omega⟩ : Fin 4096) (⟨(j 2).val, hj2⟩ : Fin 256) :=
    funext fun a => Fin.ext (by
      match a with
      | ⟨0, _⟩ => show win0_3.index t (0 : Fin 3) * 1 + 1 * (j 0).val = t.val / 8; omega
      | ⟨1, _⟩ => show win0_3.index t (1 : Fin 3) * 512 + 1 * (j 1).val = 512 * (t.val % 8) + (j 1).val; omega
      | ⟨2, _⟩ => show win0_3.index t (2 : Fin 3) * 256 + 1 * (j 2).val = (j 2).val; omega)
  show k0_pay3 (F := Ideal) (iblk0 V c 0 t) (iblk0 V c 1 t) ((cfg0.win 3).xinj (grid0.coords t) j)
      = Cert.Spec.G0_3 (V c main_arg0) (V c main_v2) (((cfg0.win 3).blk t).view.emb j)
  rw [hL, hR]
  exact pay3_entry (iblk0 V c 0 t) (iblk0 V c 1 t) (V c main_arg0) (V c main_v2)
    ⟨t.val / 8, by omega⟩ ⟨512 * (t.val % 8) + (j 1).val, by omega⟩ ⟨(j 0).val, hj0⟩ ⟨(j 1).val, hj1⟩ ⟨(j 2).val, hj2⟩
    (fun f => xblk_apply V c t ⟨t.val / 8, by omega⟩ ⟨512 * (t.val % 8) + (j 1).val, by omega⟩ ⟨(j 1).val, hj1⟩ f rfl rfl)
    (fun f k => wblk_apply V c t f k)

/-- An index of output 3's array is in point `t`'s block iff each coordinate is in the block's range on its axis. -/
theorem mem_blk3 (t : Fin cfg0.N) (i : S8x4096x256.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v3_1).slice (win0_3.rect t)).set ↔ _
  rw [View.set_slice_whole, Rect.mem_set_unit]
  exact Iff.rfl

/-- Every index of output 3's array is in the block of the point of its batch and slab. -/
theorem cover3 (i : S8x4096x256.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 256 := (i 2).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  obtain ⟨-, -, -, ⟨e0, e1, e2⟩, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 256 ≤ (i 2).val ∧ (i 2).val < win0_3.index t (2 : Fin 3) * 256 + 256; omega

/-- Output 3 after call 0: columns 256..511 of every row's product with the weights. -/
theorem final0_3 (c : Dev nD) :
    (dat0 (F := Ideal) V c).arrAt 3 cfg0.N = Cert.Spec.G0_3 (V c main_arg0) (V c main_v2) :=
  (dat0 (F := Ideal) V c).arrAt_eq_of_cover 3 (Cert.Spec.G0_3 (V c main_arg0) (V c main_v2))
    (fun t _ => flushed3_eq V c t) cover3

/-! ### Output 4 -/

/-- What point `t` writes back to output 4 is block `t` of the whole-array function. -/
theorem flushed4_eq (c : Dev nD) (t : Fin cfg0.N) :
    (dat0 (F := Ideal) V c).flushed 4 t
      = ((cfg0.win 4).blk t).view.read (Elt Ideal) (Cert.Spec.G0_4 (V c main_arg0) (V c main_v2)) := by
  show (cfg0.win 4).cut (grid0.coords t) ((dat0 (F := Ideal) V c).after 4 t) = _
  rw [after0_4]
  unfold out0_4
  rw [View.canon_unit_zero hz3]
  simp only [View.ld_unit_zero (S := S1x512x1024) hz3, View.ld_unit_zero (S := S1024x1536) hz2]
  obtain ⟨-, -, -, -, ⟨e0, e1, e2⟩⟩ := idx_facts t
  have hN : cfg0.N = 64 := N_0
  have ht : t.val < 64 := hN ▸ t.isLt
  funext j
  have hj0 : (j 0).val < 1 := (j 0).isLt
  have hj1 : (j 1).val < 512 := (j 1).isLt
  have hj2 : (j 2).val < 1024 := (j 2).isLt
  have hL : (cfg0.win 4).xinj (grid0.coords t) j
      = ix3 (⟨(j 0).val, hj0⟩ : Fin 1) (⟨(j 1).val, hj1⟩ : Fin 512) (⟨(j 2).val, hj2⟩ : Fin 1024) :=
    funext fun a => by
      match a with
      | ⟨0, _⟩ => rfl
      | ⟨1, _⟩ => rfl
      | ⟨2, _⟩ => rfl
  have hR : ((cfg0.win 4).blk t).view.emb j
      = ix3 (⟨t.val / 8, by omega⟩ : Fin 8) (⟨512 * (t.val % 8) + (j 1).val, by omega⟩ : Fin 4096) (⟨(j 2).val, hj2⟩ : Fin 1024) :=
    funext fun a => Fin.ext (by
      match a with
      | ⟨0, _⟩ => show win0_4.index t (0 : Fin 3) * 1 + 1 * (j 0).val = t.val / 8; omega
      | ⟨1, _⟩ => show win0_4.index t (1 : Fin 3) * 512 + 1 * (j 1).val = 512 * (t.val % 8) + (j 1).val; omega
      | ⟨2, _⟩ => show win0_4.index t (2 : Fin 3) * 1024 + 1 * (j 2).val = (j 2).val; omega)
  show k0_pay4 (F := Ideal) (iblk0 V c 0 t) (iblk0 V c 1 t) ((cfg0.win 4).xinj (grid0.coords t) j)
      = Cert.Spec.G0_4 (V c main_arg0) (V c main_v2) (((cfg0.win 4).blk t).view.emb j)
  rw [hL, hR]
  exact pay4_entry (iblk0 V c 0 t) (iblk0 V c 1 t) (V c main_arg0) (V c main_v2)
    ⟨t.val / 8, by omega⟩ ⟨512 * (t.val % 8) + (j 1).val, by omega⟩ ⟨(j 0).val, hj0⟩ ⟨(j 1).val, hj1⟩ ⟨(j 2).val, hj2⟩
    (fun f => xblk_apply V c t ⟨t.val / 8, by omega⟩ ⟨512 * (t.val % 8) + (j 1).val, by omega⟩ ⟨(j 1).val, hj1⟩ f rfl rfl)
    (fun f k => wblk_apply V c t f k)

/-- An index of output 4's array is in point `t`'s block iff each coordinate is in the block's range on its axis. -/
theorem mem_blk4 (t : Fin cfg0.N) (i : S8x4096x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v3_2).slice (win0_4.rect t)).set ↔ _
  rw [View.set_slice_whole, Rect.mem_set_unit]
  exact Iff.rfl

/-- Every index of output 4's array is in the block of the point of its batch and slab. -/
theorem cover4 (i : S8x4096x1024.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1024 := (i 2).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  obtain ⟨-, -, -, -, ⟨e0, e1, e2⟩⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- Output 4 after call 0: columns 512..1535 of every row's product with the weights. -/
theorem final0_4 (c : Dev nD) :
    (dat0 (F := Ideal) V c).arrAt 4 cfg0.N = Cert.Spec.G0_4 (V c main_arg0) (V c main_v2) :=
  (dat0 (F := Ideal) V c).arrAt_eq_of_cover 4 (Cert.Spec.G0_4 (V c main_arg0) (V c main_v2))
    (fun t _ => flushed4_eq V c t) cover4

/-! ### Output 2 -/

/-- What point `t` writes back to output 2 is block `t` of the whole-array function. -/
theorem flushed2_eq (c : Dev nD) (t : Fin cfg0.N) :
    (dat0 (F := Ideal) V c).flushed 2 t
      = ((cfg0.win 2).blk t).view.read (Elt Ideal) (Cert.Spec.G0_2 (V c main_arg0) (V c main_v2)) := by
  show (cfg0.win 2).cut (grid0.coords t) ((dat0 (F := Ideal) V c).after 2 t) = _
  rw [after0_2]
  unfold out0_2
  rw [View.canon_unit_zero hz3]
  simp only [View.ld_unit_zero (S := S1x512x1024) hz3, View.ld_unit_zero (S := S1024x1536) hz2]
  obtain ⟨-, -, ⟨e0, e1, e2⟩, -⟩ := idx_facts t
  have hN : cfg0.N = 64 := N_0
  have ht : t.val < 64 := hN ▸ t.isLt
  funext j
  have hj0 : (j 0).val < 1 := (j 0).isLt
  have hj1 : (j 1).val < 512 := (j 1).isLt
  have hj2 : (j 2).val < 256 := (j 2).isLt
  have hL : (cfg0.win 2).xinj (grid0.coords t) j
      = ix3 (⟨(j 0).val, hj0⟩ : Fin 1) (⟨(j 1).val, hj1⟩ : Fin 512) (⟨(j 2).val, hj2⟩ : Fin 256) :=
    funext fun a => by
      match a with
      | ⟨0, _⟩ => rfl
      | ⟨1, _⟩ => rfl
      | ⟨2, _⟩ => rfl
  have hR : ((cfg0.win 2).blk t).view.emb j
      = ix3 (⟨t.val / 8, by omega⟩ : Fin 8) (⟨512 * (t.val % 8) + (j 1).val, by omega⟩ : Fin 4096) (⟨(j 2).val, hj2⟩ : Fin 256) :=
    funext fun a => Fin.ext (by
      match a with
      | ⟨0, _⟩ => show win0_2.index t (0 : Fin 3) * 1 + 1 * (j 0).val = t.val / 8; omega
      | ⟨1, _⟩ => show win0_2.index t (1 : Fin 3) * 512 + 1 * (j 1).val = 512 * (t.val % 8) + (j 1).val; omega
      | ⟨2, _⟩ => show win0_2.index t (2 : Fin 3) * 256 + 1 * (j 2).val = (j 2).val; omega)
  show k0_pay2 (F := Ideal) (iblk0 V c 0 t) (iblk0 V c 1 t) ((cfg0.win 2).xinj (grid0.coords t) j)
      = Cert.Spec.G0_2 (V c main_arg0) (V c main_v2) (((cfg0.win 2).blk t).view.emb j)
  rw [hL, hR]
  exact pay2_entry (iblk0 V c 0 t) (iblk0 V c 1 t) (V c main_arg0) (V c main_v2)
    ⟨t.val / 8, by omega⟩ ⟨512 * (t.val % 8) + (j 1).val, by omega⟩ ⟨(j 0).val, hj0⟩ ⟨(j 1).val, hj1⟩ ⟨(j 2).val, hj2⟩
    (fun f => xblk_apply V c t ⟨t.val / 8, by omega⟩ ⟨512 * (t.val % 8) + (j 1).val, by omega⟩ ⟨(j 1).val, hj1⟩ f rfl rfl)
    (fun f k => wblk_apply V c t f k)

/-- An index of output 2's array is in point `t`'s block iff each coordinate is in the block's range on its axis. -/
theorem mem_blk2 (t : Fin cfg0.N) (i : S8x4096x256.Idx) :
    i ∈ ((cfg0.win 2).blk t).view.set ↔ ∀ a : Fin 3, win0_2.index t a * S1x512x256.size a ≤ (i a).val
      ∧ (i a).val < win0_2.index t a * S1x512x256.size a + S1x512x256.size a := by
  show i ∈ ((View.whole main_v3_0).slice (win0_2.rect t)).set ↔ _
  rw [View.set_slice_whole, Rect.mem_set_unit]
  exact Iff.rfl

/-- Every index of output 2's array is in the block of the point of its batch and slab. -/
theorem cover2 (i : S8x4096x256.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 256 := (i 2).isLt
  have hN : cfg0.N = 64 := N_0
  obtain ⟨t, ht⟩ : ∃ t : Fin cfg0.N, t.val = 8 * (i 0).val + (i 1).val / 512 := ⟨⟨8 * (i 0).val + (i 1).val / 512, by omega⟩, rfl⟩
  obtain ⟨-, -, ⟨e0, e1, e2⟩, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 256 ≤ (i 2).val ∧ (i 2).val < win0_2.index t (2 : Fin 3) * 256 + 256; omega

/-- Output 2 after call 0: columns 0..255 of every row's product with the weights, times the scale. -/
theorem final0_2 (c : Dev nD) :
    (dat0 (F := Ideal) V c).arrAt 2 cfg0.N = Cert.Spec.G0_2 (V c main_arg0) (V c main_v2) :=
  (dat0 (F := Ideal) V c).arrAt_eq_of_cover 2 (Cert.Spec.G0_2 (V c main_arg0) (V c main_v2))
    (fun t _ => flushed2_eq V c t) cover2

/-! ## The host prefix: the transposed stacked weights -/

/-- The three weight matrices concatenated along the rows, at row `j` and feature `f`: the matrix whose row range
    holds `j`, at `j` less the rows before it. -/
theorem wcat_apply (w1 w2 : Cert.Spec.A2 256 1024) (w3 : Cert.Spec.A2 1024 1024) (j : Fin 1536) (f : Fin 1024) :
    concatenate S1536x1024 0 [⟨S256x1024, w1⟩, ⟨S256x1024, w2⟩, ⟨S1024x1024, w3⟩]
        concatenates_S256x1024_S256x1024_S1024x1024_S1536x1024_d0 (ix2 j f)
      = Cert.Spec.wcat (Cert.Spec.cur2 w1) (Cert.Spec.cur2 w2) (Cert.Spec.cur2 w3) j f := by
  unfold Cert.Spec.wcat
  by_cases h1 : j.val < 256
  · rw [dif_pos h1]
    exact concatenate_apply_piece (α := EReal) (t := S1536x1024) (0 : Fin 2) [⟨S256x1024, w1⟩, ⟨S256x1024, w2⟩, ⟨S1024x1024, w3⟩] concatenates_S256x1024_S256x1024_S1024x1024_S1536x1024_d0 (ix2 j f) 0 (by simp) S256x1024 w1 rfl rfl 0 rfl (ix2 ⟨j.val, h1⟩ f)
      (fun b hb => by
        match b with
        | ⟨0, _⟩ => exact absurd rfl hb
        | ⟨1, _⟩ => rfl)
      (by show 0 + j.val = j.val; omega)
  · rw [dif_neg h1]
    by_cases h2 : j.val < 512
    · rw [dif_pos h2]
      exact concatenate_apply_piece (α := EReal) (t := S1536x1024) (0 : Fin 2) [⟨S256x1024, w1⟩, ⟨S256x1024, w2⟩, ⟨S1024x1024, w3⟩] concatenates_S256x1024_S256x1024_S1024x1024_S1536x1024_d0 (ix2 j f) 1 (by simp) S256x1024 w2 rfl rfl 256 rfl (ix2 ⟨j.val - 256, by omega⟩ f)
        (fun b hb => by
          match b with
          | ⟨0, _⟩ => exact absurd rfl hb
          | ⟨1, _⟩ => rfl)
        (by show 256 + (j.val - 256) = j.val; omega)
    · rw [dif_neg h2]
      have hj : j.val < 1536 := j.isLt
      exact concatenate_apply_piece (α := EReal) (t := S1536x1024) (0 : Fin 2) [⟨S256x1024, w1⟩, ⟨S256x1024, w2⟩, ⟨S1024x1024, w3⟩] concatenates_S256x1024_S256x1024_S1024x1024_S1536x1024_d0 (ix2 j f) 2 (by simp) S1024x1024 w3 rfl rfl 512 rfl (ix2 ⟨j.val - 512, by omega⟩ f)
        (fun b hb => by
          match b with
          | ⟨0, _⟩ => exact absurd rfl hb
          | ⟨1, _⟩ => rfl)
        (by show 512 + (j.val - 512) = j.val; omega)

/-- What the host prefix leaves in the weights' buffer: the three matrices stacked, rounded (the identity here) and
    transposed. -/
theorem wt_eq (W : Valuation τ sig (Elt Ideal)) :
    StableHlo.after (hostOps0 (F := Ideal)) W (Proc.devRef .tc main_v2)
      = Cert.Spec.wtOf (W (Proc.devRef .tc main_arg1)) (W (Proc.devRef .tc main_arg2)) (W (Proc.devRef .tc main_arg3)) := by
  have e : StableHlo.after (hostOps0 (F := Ideal)) W (Proc.devRef .tc main_v2)
      = transpose S1024x1536 [1, 0] (truncf (F := Ideal) .bf16 (concatenate S1536x1024 0
          [⟨S256x1024, W (Proc.devRef .tc main_arg1)⟩, ⟨S256x1024, W (Proc.devRef .tc main_arg2)⟩, ⟨S1024x1024, W (Proc.devRef .tc main_arg3)⟩]
          concatenates_S256x1024_S256x1024_S1024x1024_S1536x1024_d0) bitsLt_bf16_f32) transposes_S1536x1024_S1024x1536_1_0 := by
    simp only [StableHlo.after_cons, StableHlo.after_nil]
    rw [StableHlo.unary_result, StableHlo.unary_result, Cert.Lib.nary3_result]
    rfl
  rw [e]
  funext i
  obtain ⟨f, j, rfl⟩ : ∃ (f : Fin 1024) (j : Fin 1536), i = ix2 f j := ⟨i 0, i 1, eq_ix2 i⟩
  refine (transpose_ix2_apply _ transposes_S1536x1024_S1024x1536_1_0 f j).trans ?_
  exact wcat_apply (W (Proc.devRef .tc main_arg1)) (W (Proc.devRef .tc main_arg2)) (W (Proc.devRef .tc main_arg3)) j f

end Cert.KernelIdeal.Val0

end
-- ==== Proof.Val1.lean ====
/-
  What the reduction call leaves in its output array, as one function of the two arrays it reads.

  The call's grid is 8 × 4: point `t` is batch `t / 4`, slab `t % 4` (four slabs of 1024 rows). At each point the
  body adds to an accumulator, at `(l, o)`, the sum over the slab's rows `r` of
  `φ[b, 1024 k + r, l] · g[b, 1024 k + r, o]` — a product of the two blocks with the left one transposed —, starting
  from zero at a batch's first slab; at the fourth slab it writes the accumulator out as the batch's 256 × 1024 block
  of the output. So the output ends holding, at `(b, l, o)`, the four slabs' sums added in order from zero:
  `Cert.Spec.G1` of the two arrays.

  The steps: the three payloads read at an index; the input blocks read in their arrays (a block's coordinate is the
  block index times the block's size plus the coordinate inside the block); the accumulator after each slab of a
  batch; what a writing point writes back is its block of `G1`; the writing points' blocks cover the array.
-/
import proofs.«146318_j26594437496900_2_alg».proof.Proof.KernelIdeal.Data
import proofs.«146318_j26594437496900_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val1

open Cert.KernelIdeal Cert.KernelIdeal.Gen Cert.KernelIdeal.Hand Idealize.ShloMosaic Idealize.ShloMosaic.TcCoe Idealize.ShloMosaic.ValueIdx
open Idealize.ShloMosaic.Pipeline (Dat)

/-! ## The body's three payloads at an index -/

/-- The reset value is zero everywhere. -/
theorem pay1_apply (j : S256x1024.Idx) : k1_pay1 (F := Ideal) j = 0 := by
  unfold k1_pay1
  rw [shapeCast_self]
  show Ideal.ofBits .f32 0x00000000#32 = 0
  exact Ideal.ofBits_zero_f32

/-- The left operand's free axis (its lanes) carries the output's row. -/
theorem lhs_nc (i : S256x1024.Idx) (q : dot_S1024x256_S1024x1024_S256x1024_0_0_1_1_n_n.contr.Idx) :
    (dot_S1024x256_S1024x1024_S256x1024_0_0_1_1_n_n.lhsIdx i q 1).val = (i 0).val := by
  unfold DotDims.lhsIdx
  rw [dif_neg (show ¬(1 : Fin S1024x256.rank) ∈ dot_S1024x256_S1024x1024_S256x1024_0_0_1_1_n_n.lhsBatch by decide), dif_pos (show (1 : Fin S1024x256.rank) ∈ dot_S1024x256_S1024x1024_S256x1024_0_0_1_1_n_n.lhsNonContracting by decide)]
  rfl
/-- The left operand's contracted axis (its rows) carries the contraction index. -/
theorem lhs_c (i : S256x1024.Idx) (q : dot_S1024x256_S1024x1024_S256x1024_0_0_1_1_n_n.contr.Idx) :
    (dot_S1024x256_S1024x1024_S256x1024_0_0_1_1_n_n.lhsIdx i q 0).val = (q ⟨0, by decide⟩).val :=
  dot_S1024x256_S1024x1024_S256x1024_0_0_1_1_n_n.lhsIdx_val_of_single rfl i q
/-- The right operand's free axis (its lanes) carries the output's lane. -/
theorem rhs_nc (i : S256x1024.Idx) (q : dot_S1024x256_S1024x1024_S256x1024_0_0_1_1_n_n.contr.Idx) :
    (dot_S1024x256_S1024x1024_S256x1024_0_0_1_1_n_n.rhsIdx i q 1).val = (i 1).val := by
  unfold DotDims.rhsIdx
  rw [dif_neg (show ¬(1 : Fin S1024x1024.rank) ∈ dot_S1024x256_S1024x1024_S256x1024_0_0_1_1_n_n.rhsBatch by decide), dif_pos (show (1 : Fin S1024x1024.rank) ∈ dot_S1024x256_S1024x1024_S256x1024_0_0_1_1_n_n.rhsNonContracting by decide)]
  rfl
/-- The right operand's contracted axis (its rows) carries the contraction index. -/
theorem rhs_c (i : S256x1024.Idx) (q : dot_S1024x256_S1024x1024_S256x1024_0_0_1_1_n_n.contr.Idx) :
    (dot_S1024x256_S1024x1024_S256x1024_0_0_1_1_n_n.rhsIdx i q 0).val = (q ⟨0, by decide⟩).val :=
  dot_S1024x256_S1024x1024_S256x1024_0_0_1_1_n_n.rhsIdx_val_of_single rfl i q

/-- The slab's product: the left operand is read transposed (row `r` of both operands is contracted). -/
theorem matmul_apply (a : FVec Ideal S1024x256 .bf16) (b : FVec Ideal S1024x1024 .bf16) (l : Fin 256) (o : Fin 1024) :
    FloatOps.matmul dot_S1024x256_S1024x1024_S256x1024_0_0_1_1_n_n none a b (constant S256x1024 .f32 0x00000000#32) (ix2 l o)
      = ∑ r : Fin 1024, a (ix2 r l) * b (ix2 r o) := by
  rw [Ideal.matmul_constant_zero_apply, ← Equiv.sum_comp (ValueIdx.contrEquiv1 dot_S1024x256_S1024x1024_S256x1024_0_0_1_1_n_n 1024 rfl rfl).symm]
  refine Finset.sum_congr rfl fun k _ => ?_
  have hk := ValueIdx.contrEquiv1_symm_val dot_S1024x256_S1024x1024_S256x1024_0_0_1_1_n_n 1024 rfl rfl k
  have el : dot_S1024x256_S1024x1024_S256x1024_0_0_1_1_n_n.lhsIdx (ix2 l o) ((ValueIdx.contrEquiv1 dot_S1024x256_S1024x1024_S256x1024_0_0_1_1_n_n 1024 rfl rfl).symm k) = ix2 k l := funext fun a => Fin.ext (by
    match a with
    | ⟨0, _⟩ => exact (lhs_c _ _).trans hk
    | ⟨1, _⟩ => exact lhs_nc _ _)
  have er : dot_S1024x256_S1024x1024_S256x1024_0_0_1_1_n_n.rhsIdx (ix2 l o) ((ValueIdx.contrEquiv1 dot_S1024x256_S1024x1024_S256x1024_0_0_1_1_n_n 1024 rfl rfl).symm k) = ix2 k o := funext fun a => Fin.ext (by
    match a with
    | ⟨0, _⟩ => exact (rhs_c _ _).trans hk
    | ⟨1, _⟩ => exact rhs_nc _ _)
  rw [el, er]

/-- One slab's step: the accumulator gains, at `(l, o)`, the sum over the slab's rows of the products. -/
theorem pay2_apply (x0 : Vec Ideal S1x1024x256 .bf16) (x1 : Vec Ideal S1x1024x1024 .bf16) (a : Vec Ideal S256x1024 .f32)
    (l : Fin 256) (o : Fin 1024) :
    k1_pay2 x0 x1 a (ix2 l o) = a (ix2 l o) + ∑ r : Fin 1024, x0 (ix3 (0 : Fin 1) r l) * x1 (ix3 (0 : Fin 1) r o) := by
  unfold k1_pay2
  rw [shapeCast_self]
  show a (ix2 l o) + FloatOps.matmul (F := Ideal) (φ₁ := .bf16) (φ₂ := .bf16) dot_S1024x256_S1024x1024_S256x1024_0_0_1_1_n_n none _ _ (constant (F := Ideal) S256x1024 .f32 0x00000000#32) (ix2 l o) = _
  refine congrArg (a (ix2 l o) + ·) ?_
  refine (matmul_apply _ _ l o).trans ?_
  refine Finset.sum_congr rfl fun r _ => ?_
  rw [shapeCast_1ab_ab_apply, shapeCast_1ab_ab_apply]

/-- The narrowing to the output block: the same value under a leading unit axis. -/
theorem pay3_apply (a : Vec Ideal S256x1024 .f32) (u : Fin 1) (l : Fin 256) (o : Fin 1024) :
    k1_pay3 a (ix3 u l o) = a (ix2 l o) := by
  unfold k1_pay3
  exact shapeCast_ab_1ab_apply _ _ u l o

/-! ## The windows' blocks in their arrays

Call 1's grid is 8 × 4: point `t` is batch `t / 4`, slab `t % 4`. The two input windows' blocks sit at block index
`(t / 4, t % 4, 0)`, the output's at `(t / 4, 0, 0)`. -/

section
variable (V : (c : Dev nD) → (b : Ref sig .tc) → Buf (Elt Ideal) ((c : Thread nD τ).loc b))

/-- The printed index maps, decided once over the 32 grid points. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = 0 ∧ win1_2.index t (2 : Fin 3) = 0 :=
  (by decide +kernel : ∀ t : Fin grid1.N, _)

/-- Window 0's block at point `t`, row `r`, lane `l`: the array at batch `t / 4`, row `1024 · (t % 4) + r`, lane `l`
    (a block's coordinate is the block index times the block's size plus the coordinate inside the block). -/
theorem iblk0_apply (c : Dev nD) (t : Fin cfg1.N) (r : Fin 1024) (l : Fin 256) (k : S8x4096x256.Idx)
    (hk0 : (k 0).val = t.val / 4) (hk1 : (k 1).val = 1024 * (t.val % 4) + r.val) (hk2 : (k 2).val = l.val) :
    (iblk1 V c 0 t : Vec Ideal S1x1024x256 .bf16) (ix3 (0 : Fin 1) r l) = (V c main_v3_1 : S8x4096x256.Idx → Elt Ideal .bf16) k := by
  obtain ⟨e0, e1, e2, -⟩ := idx_facts t
  unfold iblk1
  rw [View.read_apply]
  show V c main_v3_1 _ = V c main_v3_1 _
  congr 1
  funext a
  apply Fin.ext
  match a with
  | ⟨0, _⟩ => show win1_0.index t (0 : Fin 3) * 1 + 1 * 0 = (k 0).val; rw [e0, hk0]; omega
  | ⟨1, _⟩ => show win1_0.index t (1 : Fin 3) * 1024 + 1 * r.val = (k 1).val; rw [e1, hk1]; omega
  | ⟨2, _⟩ => show win1_0.index t (2 : Fin 3) * 256 + 1 * l.val = (k 2).val; rw [e2, hk2]; omega

/-- Window 1's block at point `t`, row `r`, lane `o`: the array at batch `t / 4`, row `1024 · (t % 4) + r`, lane `o`. -/
theorem iblk1_apply (c : Dev nD) (t : Fin cfg1.N) (r : Fin 1024) (o : Fin 1024) (k : S8x4096x1024.Idx)
    (hk0 : (k 0).val = t.val / 4) (hk1 : (k 1).val = 1024 * (t.val % 4) + r.val) (hk2 : (k 2).val = o.val) :
    (iblk1 V c 1 t : Vec Ideal S1x1024x1024 .bf16) (ix3 (0 : Fin 1) r o) = (V c main_v3_2 : S8x4096x1024.Idx → Elt Ideal .bf16) k := by
  obtain ⟨-, -, -, e0, e1, e2, -⟩ := idx_facts t
  unfold iblk1
  rw [View.read_apply]
  show V c main_v3_2 _ = V c main_v3_2 _
  congr 1
  funext a
  apply Fin.ext
  match a with
  | ⟨0, _⟩ => show win1_1.index t (0 : Fin 3) * 1 + 1 * 0 = (k 0).val; rw [e0, hk0]; omega
  | ⟨1, _⟩ => show win1_1.index t (1 : Fin 3) * 1024 + 1 * r.val = (k 1).val; rw [e1, hk1]; omega
  | ⟨2, _⟩ => show win1_1.index t (2 : Fin 3) * 1024 + 1 * o.val = (k 2).val; rw [e2, hk2]; omega

/-! ## The accumulator -/

/-- The products of the two blocks at point `t`, summed over the block's rows, are slab `t % 4`'s share of batch
    `t / 4`'s sum over rows. -/
theorem slab_eq (c : Dev nD) (t : Fin cfg1.N) (b : Fin 8) (k : Fin 4) (hb : b.val = t.val / 4) (hk : k.val = t.val % 4)
    (l : Fin 256) (o : Fin 1024) (x0 : Vec Ideal S1x1024x256 .bf16) (x1 : Vec Ideal S1x1024x1024 .bf16)
    (h0 : x0 = iblk1 V c 0 t) (h1 : x1 = iblk1 V c 1 t) :
    (∑ r : Fin 1024, x0 (ix3 (0 : Fin 1) r l) * x1 (ix3 (0 : Fin 1) r o))
      = Cert.Spec.slabSum (fun m => (V c main_v3_1 : S8x4096x256.Idx → Elt Ideal .bf16) (ix3 b m l))
          (fun m => (V c main_v3_2 : S8x4096x1024.Idx → Elt Ideal .bf16) (ix3 b m o)) k := by
  subst h0
  subst h1
  unfold Cert.Spec.slabSum
  refine Finset.sum_congr rfl fun r _ => ?_
  have hr : (Cert.Spec.slabRow k r).val = 1024 * (t.val % 4) + r.val := by
    show 1024 * k.val + r.val = _
    rw [hk]
  exact congrArg₂ (· * ·) (iblk0_apply V c t r l (ix3 b (Cert.Spec.slabRow k r) l) hb hr rfl)
    (iblk1_apply V c t r o (ix3 b (Cert.Spec.slabRow k r) o) hb hr rfl)

/-- At the first slab of a batch the accumulator is the zero plus the slab's share. -/
theorem acc_first (c : Dev nD) (t : Fin cfg1.N) (h0 : t.val % 4 = 0) (b : Fin 8) (k : Fin 4)
    (hb : b.val = t.val / 4) (hk : k.val = t.val % 4) (l : Fin 256) (o : Fin 1024) :
    acc1 V c t.val t.isLt (ix2 l o)
      = 0 + Cert.Spec.slabSum (fun m => (V c main_v3_1 : S8x4096x256.Idx → Elt Ideal .bf16) (ix3 b m l))
          (fun m => (V c main_v3_2 : S8x4096x1024.Idx → Elt Ideal .bf16) (ix3 b m o)) k := by
  refine (congrFun (acc1_first V c t h0) (ix2 l o)).trans ?_
  refine (pay2_apply _ _ _ l o).trans ?_
  exact congrArg₂ (· + ·) (pay1_apply _) (slab_eq V c t b k hb hk l o _ _ rfl rfl)

/-- At a later slab it is what the point before left plus the slab's share. -/
theorem acc_next (c : Dev nD) (t : Fin cfg1.N) (h0 : ¬ t.val % 4 = 0) (b : Fin 8) (k : Fin 4)
    (hb : b.val = t.val / 4) (hk : k.val = t.val % 4) (l : Fin 256) (o : Fin 1024) :
    acc1 V c t.val t.isLt (ix2 l o)
      = acc1 V c (t.val - 1) (Nat.lt_of_le_of_lt (Nat.sub_le _ _) t.isLt) (ix2 l o)
        + Cert.Spec.slabSum (fun m => (V c main_v3_1 : S8x4096x256.Idx → Elt Ideal .bf16) (ix3 b m l))
          (fun m => (V c main_v3_2 : S8x4096x1024.Idx → Elt Ideal .bf16) (ix3 b m o)) k := by
  refine (congrFun (acc1_next V c t h0) (ix2 l o)).trans ?_
  refine (pay2_apply _ _ _ l o).trans ?_
  exact congrArg (_ + ·) (slab_eq V c t b k hb hk l o _ _ rfl rfl)

/-- After the fourth slab of batch `b` the accumulator holds, at `(l, o)`, the four slabs' shares added in order
    from zero. -/
theorem acc_last (c : Dev nD) (t : Fin cfg1.N) (h3 : t.val % 4 = 3) (b : Fin 8) (hb : b.val = t.val / 4)
    (l : Fin 256) (o : Fin 1024) :
    acc1 V c t.val t.isLt (ix2 l o)
      = Cert.Spec.accM (fun m => (V c main_v3_1 : S8x4096x256.Idx → Elt Ideal .bf16) (ix3 b m l))
          (fun m => (V c main_v3_2 : S8x4096x1024.Idx → Elt Ideal .bf16) (ix3 b m o)) := by
  have hN : cfg1.N = 32 := N_1
  have ht : t.val < 32 := hN ▸ t.isLt
  have e3 := acc_next V c t (by omega) b 3 hb (by show 3 = t.val % 4; omega) l o
  have e2 := acc_next V c ⟨t.val - 1, by omega⟩ (by show ¬ (t.val - 1) % 4 = 0; omega) b 2
    (by show b.val = (t.val - 1) / 4; omega) (by show 2 = (t.val - 1) % 4; omega) l o
  have e1 := acc_next V c ⟨t.val - 1 - 1, by omega⟩ (by show ¬ (t.val - 1 - 1) % 4 = 0; omega) b 1
    (by show b.val = (t.val - 1 - 1) / 4; omega) (by show 1 = (t.val - 1 - 1) % 4; omega) l o
  have e0 := acc_first V c ⟨t.val - 1 - 1 - 1, by omega⟩ (by show (t.val - 1 - 1 - 1) % 4 = 0; omega) b 0
    (by show b.val = (t.val - 1 - 1 - 1) / 4; omega) (by show 0 = (t.val - 1 - 1 - 1) % 4; omega) l o
  unfold Cert.Spec.accM
  rw [e3, e2, e1, e0]

end

/-! ## From the blocks to the array -/

section
variable (V : (c : Dev nD) → (b : Ref sig .tc) → Buf (Elt Ideal) ((c : Thread nD τ).loc b))

/-- The whole-array function at an index written by coordinates. -/
theorem G1_at (p : Cert.Spec.A3 8 4096 256) (g : Cert.Spec.A3 8 4096 1024) (b' b : Fin 8) (l' l : Fin 256) (o' o : Fin 1024)
    (h0 : b'.val = b.val) (h1 : l'.val = l.val) (h2 : o'.val = o.val) :
    Cert.Spec.G1 p g (ix3 b' l' o') = Cert.Spec.accM (fun m => p (ix3 b m l)) (fun m => g (ix3 b m o)) := by
  obtain rfl : b' = b := Fin.ext h0
  obtain rfl : l' = l := Fin.ext h1
  obtain rfl : o' = o := Fin.ext h2
  rfl

/-- What a writing point (the fourth slab of its batch) writes back is its block of the whole-array function: the
    block is batch `t / 4`'s whole 256 × 1024 matrix, and the accumulator holds that batch's four slabs. -/
theorem flushed_eq (c : Dev nD) (t : Fin cfg1.N) (hf : (cfg1.win 2).flush t = true) :
    (dat1 V c).flushed 2 t = ((cfg1.win 2).blk t).view.read (Elt Ideal) (Cert.Spec.G1 (V c main_v3_1) (V c main_v3_2)) := by
  have h3 : t.val % 4 = 3 := (flush1_2 t).mp hf
  have hN : cfg1.N = 32 := N_1
  have ht : t.val < 32 := hN ▸ t.isLt
  obtain ⟨-, -, -, -, -, -, e0, e1, e2⟩ := idx_facts t
  show (cfg1.win 2).cut (grid1.coords t) ((dat1 V c).after 2 t) = _
  rw [after1_2]
  funext j
  rw [View.read_apply]
  have hj0 : (j 0).val < 1 := (j 0).isLt
  have hj1 : (j 1).val < 256 := (j 1).isLt
  have hj2 : (j 2).val < 1024 := (j 2).isLt
  have hx : (cfg1.win 2).xinj (grid1.coords t) j
      = ix3 (⟨(j 0).val, hj0⟩ : Fin 1) (⟨(j 1).val, hj1⟩ : Fin 256) (⟨(j 2).val, hj2⟩ : Fin 1024) :=
    funext fun a => match a with | ⟨0, _⟩ => rfl | ⟨1, _⟩ => rfl | ⟨2, _⟩ => rfl
  show k1_pay3 (acc1 V c t.val t.isLt) ((cfg1.win 2).xinj (grid1.coords t) j)
    = Cert.Spec.G1 (V c main_v3_1) (V c main_v3_2) (((cfg1.win 2).blk t).view.emb j)
  rw [hx]
  refine (pay3_apply _ _ _ _).trans ?_
  refine (acc_last V c t h3 ⟨t.val / 4, by omega⟩ rfl _ _).trans ?_
  refine ((congrArg (Cert.Spec.G1 (V c main_v3_1) (V c main_v3_2)) (eq_ix3 (((cfg1.win 2).blk t).view.emb j))).trans
    (G1_at _ _ _ _ _ _ _ _ ?_ ?_ ?_)).symm
  · show win1_2.index t (0 : Fin 3) * 1 + 1 * (j 0).val = t.val / 4
    rw [e0]; omega
  · show win1_2.index t (1 : Fin 3) * 256 + 1 * (j 1).val = (j 1).val
    rw [e1]; omega
  · show win1_2.index t (2 : Fin 3) * 1024 + 1 * (j 2).val = (j 2).val
    rw [e2]; omega

/-- An index of the output array is in point `t`'s block iff each coordinate is in the block's range on its axis. -/
theorem mem_blk (t : Fin cfg1.N) (i : S8x256x1024.Idx) :
    i ∈ ((cfg1.win 2).blk t).view.set ↔ ∀ a : Fin 3, win1_2.index t a * S1x256x1024.size a ≤ (i a).val ∧ (i a).val < win1_2.index t a * S1x256x1024.size a + S1x256x1024.size a := by
  show i ∈ ((View.whole main_v4).slice (win1_2.rect t)).set ↔ _
  rw [View.set_slice_whole, Rect.mem_set_unit]
  exact Iff.rfl

/-- Every index `(b, l, o)` of the output is in the block of batch `b`'s writing point `4 b + 3`. -/
theorem cover (i : S8x256x1024.Idx) :
    ∃ t : Fin cfg1.N, (cfg1.win 2).flush t = true ∧ i ∈ ((cfg1.win 2).blk t).view.set := by
  have hN : cfg1.N = 32 := N_1
  have hi0 : (i 0).val < 8 := (i 0).isLt
  have hi1 : (i 1).val < 256 := (i 1).isLt
  have hi2 : (i 2).val < 1024 := (i 2).isLt
  obtain ⟨t, htv⟩ : ∃ t : Fin cfg1.N, t.val = 4 * (i 0).val + 3 := ⟨⟨4 * (i 0).val + 3, by rw [hN]; omega⟩, rfl⟩
  obtain ⟨-, -, -, -, -, -, e0, e1, e2⟩ := idx_facts t
  refine ⟨t, (flush1_2 t).mpr (by omega), ?_⟩
  rw [mem_blk]
  intro a
  match a with
  | ⟨0, _⟩ =>
    show win1_2.index t (0 : Fin 3) * 1 ≤ (i 0).val ∧ (i 0).val < win1_2.index t (0 : Fin 3) * 1 + 1
    rw [e0]; omega
  | ⟨1, _⟩ =>
    show win1_2.index t (1 : Fin 3) * 256 ≤ (i 1).val ∧ (i 1).val < win1_2.index t (1 : Fin 3) * 256 + 256
    rw [e1]; omega
  | ⟨2, _⟩ =>
    show win1_2.index t (2 : Fin 3) * 1024 ≤ (i 2).val ∧ (i 2).val < win1_2.index t (2 : Fin 3) * 1024 + 1024
    rw [e2]; omega

/-- The output array after call 1: per batch, the rows' products accumulated slab by slab from zero. -/
theorem final1_2 (c : Dev nD) :
    (dat1 (F := Ideal) V c).arrAt 2 cfg1.N = Cert.Spec.G1 (V c main_v3_1) (V c main_v3_2) :=
  (dat1 V c).arrAt_eq_of_cover 2 (Cert.Spec.G1 (V c main_v3_1) (V c main_v3_2)) (fun t ht => flushed_eq V c t ht) cover

end

end Cert.KernelIdeal.Val1

end
-- ==== Proof.Val2.lean ====
/-
  What the final product (call 2) leaves in its output array, as one function of the two arrays it reads, on the
  extended reals.

  The call's grid is 8 × 2: point `t` is batch `t / 2`, half `t % 2`. At a point it reads a 2048-row slab of the
  scaled projection (rows `2048 (t % 2) …` of batch `t / 2`, all 256 columns) and the batch's whole 256 × 1024
  matrix, multiplies them into a zero accumulator, and writes the 2048 × 1024 product back as the block of the
  output at the slab's place. On the extended reals the product at `(r, o)` is the plain sum over the 256
  contracted columns, so every point writes a block of the one function
      `(b, n, o) ↦ ∑ l, θs (b, n, l) · M (b, l, o)`
  of the array index, and the 16 blocks tile the array: batch `b`, row `n` lies in the block of point
  `2 b + n / 2048`.
-/
import proofs.«146318_j26594437496900_2_alg».proof.Proof.KernelIdeal.Data
import proofs.«146318_j26594437496900_2_alg».proof.Proof.Spec
import proofs.«146318_j26594437496900_2_alg».proof.Proof.LibPlainDot
import Idealize.ShloMosaic.Lib.Pipeline.Value
import Idealize.ShloMosaic.Lib.ValueLayout

set_option maxRecDepth 16384

noncomputable section

open scoped BigOperators

namespace Cert.KernelIdeal.Val2

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

-- The buffer contents the call is entered with, per core.
variable (V : (c : Dev nD) → (b : Ref sig .tc) → Buf (Elt Ideal) ((c : Thread nD τ).loc b))

/-! ## The payload at an entry -/

/-- The payload at an entry: row `r` of the slab against column `o` of the batch's matrix. The two operands lose
    their unit axis, the product into the zero accumulator is the plain sum over the 256 contracted columns, and the
    result regains the unit axis. -/
theorem pay_apply (x0 : Vec Ideal S1x2048x256 .bf16) (x1 : Vec Ideal S1x256x1024 .bf16) (r : Fin 2048) (o : Fin 1024) :
    k2_pay1 x0 x1 (ix3 (0 : Fin 1) r o) = ∑ l : Fin 256, x0 (ix3 (0 : Fin 1) r l) * x1 (ix3 (0 : Fin 1) l o) := by
  unfold k2_pay1
  refine (shapeCast_ab_1ab_apply _ shapeCasts_S2048x1024_S1x2048x1024 (0 : Fin 1) r o).trans ?_
  refine (Cert.PlainDot.matmul_zero_apply 2048 256 1024 (φ₁ := .bf16) (φ₂ := .bf16) none _ _ (ix2 r o)).trans ?_
  refine Finset.sum_congr rfl fun l _ => ?_
  exact congrArg₂ (· * ·) (shapeCast_1ab_ab_apply x0 shapeCasts_S1x2048x256_S2048x256 r l)
    (shapeCast_1ab_ab_apply x1 shapeCasts_S1x256x1024_S256x1024 l o)

/-- The same at any index of the block whose row and column are `r` and `o` (the leading coordinate is 0: the axis
    has extent 1). -/
theorem pay_at (x0 : Vec Ideal S1x2048x256 .bf16) (x1 : Vec Ideal S1x256x1024 .bf16) (y : S1x2048x1024.Idx)
    (r : Fin 2048) (o : Fin 1024) (hr : (y 1).val = r.val) (ho : (y 2).val = o.val) :
    k2_pay1 x0 x1 y = ∑ l : Fin 256, x0 (ix3 (0 : Fin 1) r l) * x1 (ix3 (0 : Fin 1) l o) := by
  have hy : y = ix3 (0 : Fin 1) r o := funext fun a => Fin.ext (by
    match a with
    | ⟨0, _⟩ => have h : (y 0).val < 1 := (y 0).isLt; show (y 0).val = 0; omega
    | ⟨1, _⟩ => exact hr
    | ⟨2, _⟩ => exact ho)
  rw [hy]
  exact pay_apply x0 x1 r o

/-! ## From blocks to the array -/

theorem hz3 : (![0, 0, 0] : Fin 3 → Nat) = fun _ => 0 := funext fun a => by fin_cases a <;> rfl

/-- The printed index maps over the 16 grid points: point `t` is batch `t / 2`, half `t % 2`. The slab window and
    the output window sit at block `(t / 2, t % 2, 0)`, the matrix window at block `(t / 2, 0, 0)`. -/
theorem idx_facts : ∀ t : Fin cfg2.N,
    win2_0.index t (0 : Fin 3) = t.val / 2 ∧ win2_0.index t (1 : Fin 3) = t.val % 2 ∧ win2_0.index t (2 : Fin 3) = 0
    ∧ win2_1.index t (0 : Fin 3) = t.val / 2 ∧ win2_1.index t (1 : Fin 3) = 0 ∧ win2_1.index t (2 : Fin 3) = 0
    ∧ win2_2.index t (0 : Fin 3) = t.val / 2 ∧ win2_2.index t (1 : Fin 3) = t.val % 2 ∧ win2_2.index t (2 : Fin 3) = 0 :=
  (by decide +kernel : ∀ t : Fin grid2.N, _)

/-- The slab window's block at point `t`, at an entry: batch `t / 2`, row `2048 (t % 2) +` the row in the block. -/
theorem iblk0_apply (c : Dev nD) (t : Fin cfg2.N) (x : S1x2048x256.Idx) (k : S8x4096x256.Idx)
    (hk0 : (k 0).val = t.val / 2) (hk1 : (k 1).val = 2048 * (t.val % 2) + (x 1).val) (hk2 : (k 2).val = (x 2).val) :
    (iblk2 (F := Ideal) V c 0 t : Vec Ideal S1x2048x256 .bf16) x = (V c main_v3_0 : S8x4096x256.Idx → EReal) k := by
  obtain ⟨e0, e1, e2, -⟩ := idx_facts t
  have hx0 : (x 0).val < 1 := (x 0).isLt
  unfold iblk2
  rw [View.read_apply]
  show V c main_v3_0 _ = V c main_v3_0 _
  refine congrArg (V c main_v3_0) ?_
  funext a
  apply Fin.ext
  match a with
  | ⟨0, _⟩ => show win2_0.index t (0 : Fin 3) * 1 + 1 * (x 0).val = (k 0).val; omega
  | ⟨1, _⟩ => show win2_0.index t (1 : Fin 3) * 2048 + 1 * (x 1).val = (k 1).val; omega
  | ⟨2, _⟩ => show win2_0.index t (2 : Fin 3) * 256 + 1 * (x 2).val = (k 2).val; omega

/-- The matrix window's block at point `t`, at an entry: batch `t / 2`'s whole 256 × 1024 matrix. -/
theorem iblk1_apply (c : Dev nD) (t : Fin cfg2.N) (x : S1x256x1024.Idx) (k : S8x256x1024.Idx)
    (hk0 : (k 0).val = t.val / 2) (hk1 : (k 1).val = (x 1).val) (hk2 : (k 2).val = (x 2).val) :
    (iblk2 (F := Ideal) V c 1 t : Vec Ideal S1x256x1024 .bf16) x = (V c main_v4 : S8x256x1024.Idx → EReal) k := by
  obtain ⟨-, -, -, e0, e1, e2, -⟩ := idx_facts t
  have hx0 : (x 0).val < 1 := (x 0).isLt
  unfold iblk2
  rw [View.read_apply]
  show V c main_v4 _ = V c main_v4 _
  refine congrArg (V c main_v4) ?_
  funext a
  apply Fin.ext
  match a with
  | ⟨0, _⟩ => show win2_1.index t (0 : Fin 3) * 1 + 1 * (x 0).val = (k 0).val; omega
  | ⟨1, _⟩ => show win2_1.index t (1 : Fin 3) * 256 + 1 * (x 1).val = (k 1).val; omega
  | ⟨2, _⟩ => show win2_1.index t (2 : Fin 3) * 1024 + 1 * (x 2).val = (k 2).val; omega

/-- What point `t` writes back is block `t` of the product of the scaled projection with the per-batch matrices. -/
theorem flushed_eq (c : Dev nD) (t : Fin cfg2.N) :
    (dat2 (F := Ideal) V c).flushed 2 t
      = ((cfg2.win 2).blk t).view.read (Elt Ideal) (Cert.Spec.G2 (V c main_v3_0) (V c main_v4)) := by
  show (cfg2.win 2).cut (grid2.coords t) ((dat2 (F := Ideal) V c).after 2 t) = _
  rw [after2_2]
  unfold out2_2
  rw [View.canon_unit_zero hz3]
  simp only [View.ld_unit_zero (S := S1x2048x256) hz3, View.ld_unit_zero (S := S1x256x1024) hz3]
  obtain ⟨-, -, -, -, -, -, e0, e1, e2⟩ := idx_facts t
  have hN : cfg2.N = 16 := N_2
  have htN : t.val < 16 := hN ▸ t.isLt
  funext j
  have hj0 : (j 0).val < 1 := (j 0).isLt
  have hj1 : (j 1).val < 2048 := (j 1).isLt
  have hj2 : (j 2).val < 1024 := (j 2).isLt
  -- the entry's coordinates in the block and in the array
  obtain ⟨r, hr⟩ : ∃ r : Fin 2048, r.val = (j 1).val := ⟨⟨(j 1).val, hj1⟩, rfl⟩
  obtain ⟨o, ho⟩ : ∃ o : Fin 1024, o.val = (j 2).val := ⟨⟨(j 2).val, hj2⟩, rfl⟩
  obtain ⟨b, hb⟩ : ∃ b : Fin 8, b.val = t.val / 2 := ⟨⟨t.val / 2, by omega⟩, rfl⟩
  obtain ⟨n, hn⟩ : ∃ n : Fin 4096, n.val = 2048 * (t.val % 2) + r.val := ⟨⟨2048 * (t.val % 2) + r.val, by omega⟩, rfl⟩
  have hi : ((cfg2.win 2).blk t).view.emb j = ix3 b n o := by
    funext a
    apply Fin.ext
    match a with
    | ⟨0, _⟩ => show win2_2.index t (0 : Fin 3) * 1 + 1 * (j 0).val = b.val; omega
    | ⟨1, _⟩ => show win2_2.index t (1 : Fin 3) * 2048 + 1 * (j 1).val = n.val; omega
    | ⟨2, _⟩ => show win2_2.index t (2 : Fin 3) * 1024 + 1 * (j 2).val = o.val; omega
  refine (pay_at (iblk2 (F := Ideal) V c 0 t) (iblk2 (F := Ideal) V c 1 t) ((cfg2.win 2).xinj (grid2.coords t) j) r o hr.symm ho.symm).trans ?_
  rw [View.read_apply, hi]
  unfold Cert.Spec.G2
  refine Finset.sum_congr rfl fun l _ => ?_
  rw [iblk0_apply V c t (ix3 (0 : Fin 1) r l) (ix3 b n l) hb hn rfl,
    iblk1_apply V c t (ix3 (0 : Fin 1) l o) (ix3 b l o) hb rfl rfl]

/-- An index of the array is in point `t`'s block iff each coordinate is in the block's range on its axis. -/
theorem mem_blk (t : Fin cfg2.N) (i : S8x4096x1024.Idx) :
    i ∈ ((cfg2.win 2).blk t).view.set ↔ ∀ a : Fin 3, win2_2.index t a * S1x2048x1024.size a ≤ (i a).val ∧ (i a).val < win2_2.index t a * S1x2048x1024.size a + S1x2048x1024.size a := by
  show i ∈ ((View.whole main_v5).slice (win2_2.rect t)).set ↔ _
  rw [View.set_slice_whole, Rect.mem_set_unit]
  exact Iff.rfl

/-- Every index of the array is in some point's block: batch `b`, row `n` is in the block of point `2 b + n / 2048`. -/
theorem cover (i : S8x4096x1024.Idx) :
    ∃ t : Fin cfg2.N, (cfg2.win 2).flush t = true ∧ i ∈ ((cfg2.win 2).blk t).view.set := by
  have hN : cfg2.N = 16 := N_2
  have hi0 : (i 0).val < 8 := (i 0).isLt
  have hi1 : (i 1).val < 4096 := (i 1).isLt
  have hi2 : (i 2).val < 1024 := (i 2).isLt
  obtain ⟨t, ht⟩ : ∃ t : Fin cfg2.N, t.val = 2 * (i 0).val + (i 1).val / 2048 :=
    ⟨⟨2 * (i 0).val + (i 1).val / 2048, by rw [hN]; omega⟩, rfl⟩
  obtain ⟨-, -, -, -, -, -, e0, e1, e2⟩ := idx_facts t
  refine ⟨t, flush2_2 t, ?_⟩
  rw [mem_blk]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 2048 ≤ (i 1).val ∧ (i 1).val < win2_2.index t (1 : Fin 3) * 2048 + 2048; omega
  | ⟨2, _⟩ => show win2_2.index t (2 : Fin 3) * 1024 ≤ (i 2).val ∧ (i 2).val < win2_2.index t (2 : Fin 3) * 1024 + 1024; omega

/-- The array call 2 leaves: entry `(b, n, o)` is row `n` of batch `b`'s scaled projection against column `o` of
    batch `b`'s matrix. -/
theorem final2_2 (c : Dev nD) :
    (dat2 (F := Ideal) V c).arrAt 2 cfg2.N = Cert.Spec.G2 (V c main_v3_0) (V c main_v4) :=
  (dat2 (F := Ideal) V c).arrAt_eq_of_cover 2 (Cert.Spec.G2 (V c main_v3_0) (V c main_v4))
    (fun t _ => flushed_eq V c t) cover

end Cert.KernelIdeal.Val2

end
-- ==== Proof.RefValue.lean ====
/-
  The reference program's result, read one element at a time, is the specification's `refOut`.

  The reference computes three projections of `x` (rows of `x` against rows of the three weight
  matrices), the batched product of the first two over the 256 shared features, the product of that
  with the scale 1/32, and the batched product of the scaled weights with the third projection over
  the 4096 rows. Reading each stage at an index gives a finite sum over the contracted axis; the
  indices at which a stage reads its operands are, coordinate by coordinate, the ones the
  specification names, and the scale is the same binary word.
-/
import proofs.«146318_j26594437496900_2_alg».proof.Proof.Gen.ReferenceIdeal.Read
import proofs.«146318_j26594437496900_2_alg».proof.Proof.Spec

set_option maxRecDepth 16384

noncomputable section

open scoped BigOperators

namespace Cert.RefValue

open Idealize.ShloMosaic Idealize.ShloMosaic.ValueIdx Cert.ReferenceIdeal

/-! ## Where each contraction reads its operands -/

/-- A projection's left operand: row `(b, n)` of `x`, feature `f`. -/
theorem lidx0 (b : Fin 8) (n : Fin 4096) (l : Fin 256) (f : Fin 1024) :
    Read.lidx_main_v0 (ix3 b n l) f = ix3 b n f :=
  funext fun a => Fin.ext (by match a with | ⟨0, _⟩ => rfl | ⟨1, _⟩ => rfl | ⟨2, _⟩ => rfl)
/-- A projection's right operand: row `l` of the weight matrix, feature `f`. -/
theorem ridx0 (b : Fin 8) (n : Fin 4096) (l : Fin 256) (f : Fin 1024) :
    Read.ridx_main_v0 (ix3 b n l) f = ix2 l f :=
  funext fun a => Fin.ext (by match a with | ⟨0, _⟩ => rfl | ⟨1, _⟩ => rfl)
theorem lidx1 (b : Fin 8) (n : Fin 4096) (l : Fin 256) (f : Fin 1024) :
    Read.lidx_main_v1 (ix3 b n l) f = ix3 b n f :=
  funext fun a => Fin.ext (by match a with | ⟨0, _⟩ => rfl | ⟨1, _⟩ => rfl | ⟨2, _⟩ => rfl)
theorem ridx1 (b : Fin 8) (n : Fin 4096) (l : Fin 256) (f : Fin 1024) :
    Read.ridx_main_v1 (ix3 b n l) f = ix2 l f :=
  funext fun a => Fin.ext (by match a with | ⟨0, _⟩ => rfl | ⟨1, _⟩ => rfl)
theorem lidx2 (b : Fin 8) (n : Fin 4096) (o : Fin 1024) (f : Fin 1024) :
    Read.lidx_main_v2 (ix3 b n o) f = ix3 b n f :=
  funext fun a => Fin.ext (by match a with | ⟨0, _⟩ => rfl | ⟨1, _⟩ => rfl | ⟨2, _⟩ => rfl)
theorem ridx2 (b : Fin 8) (n : Fin 4096) (o : Fin 1024) (f : Fin 1024) :
    Read.ridx_main_v2 (ix3 b n o) f = ix2 o f :=
  funext fun a => Fin.ext (by match a with | ⟨0, _⟩ => rfl | ⟨1, _⟩ => rfl)
/-- The attention weights' left operand: row `n` of the first projection, feature `l`. -/
theorem lidx3 (b : Fin 8) (n m : Fin 4096) (l : Fin 256) :
    Read.lidx_main_v3 (ix3 b n m) l = ix3 b n l :=
  funext fun a => Fin.ext (by match a with | ⟨0, _⟩ => rfl | ⟨1, _⟩ => rfl | ⟨2, _⟩ => rfl)
/-- The attention weights' right operand: row `m` of the second projection, feature `l`. -/
theorem ridx3 (b : Fin 8) (n m : Fin 4096) (l : Fin 256) :
    Read.ridx_main_v3 (ix3 b n m) l = ix3 b m l :=
  funext fun a => Fin.ext (by match a with | ⟨0, _⟩ => rfl | ⟨1, _⟩ => rfl | ⟨2, _⟩ => rfl)
/-- The result's left operand: the scaled weight of row `n` against row `m`. -/
theorem lidx6 (b : Fin 8) (n : Fin 4096) (o : Fin 1024) (m : Fin 4096) :
    Read.lidx_main_v6 (ix3 b n o) m = ix3 b n m :=
  funext fun a => Fin.ext (by match a with | ⟨0, _⟩ => rfl | ⟨1, _⟩ => rfl | ⟨2, _⟩ => rfl)
/-- The result's right operand: row `m` of the third projection, feature `o`. -/
theorem ridx6 (b : Fin 8) (n : Fin 4096) (o : Fin 1024) (m : Fin 4096) :
    Read.ridx_main_v6 (ix3 b n o) m = ix3 b m o :=
  funext fun a => Fin.ext (by match a with | ⟨0, _⟩ => rfl | ⟨1, _⟩ => rfl | ⟨2, _⟩ => rfl)

/-! ## The stages at an index -/

/-- The first projection is `proj` against the first weight matrix. -/
theorem v0_at (x : (⟨S8x4096x1024, .f32⟩ : BufTy).Contents (Elt Ideal)) (w : (⟨S256x1024, .f32⟩ : BufTy).Contents (Elt Ideal))
    (b : Fin 8) (n : Fin 4096) (l : Fin 256) :
    Read.val_main_v0 (F := Ideal) x w (ix3 b n l) = Cert.Spec.proj (Cert.Spec.cur3 x) (Cert.Spec.cur2 w) b n l := by
  rw [Read.val_main_v0_apply]
  unfold Cert.Spec.proj
  refine Finset.sum_congr rfl fun f _ => ?_
  rw [lidx0, ridx0]

/-- The second projection is `proj` against the second weight matrix. -/
theorem v1_at (x : (⟨S8x4096x1024, .f32⟩ : BufTy).Contents (Elt Ideal)) (w : (⟨S256x1024, .f32⟩ : BufTy).Contents (Elt Ideal))
    (b : Fin 8) (n : Fin 4096) (l : Fin 256) :
    Read.val_main_v1 (F := Ideal) x w (ix3 b n l) = Cert.Spec.proj (Cert.Spec.cur3 x) (Cert.Spec.cur2 w) b n l := by
  rw [Read.val_main_v1_apply]
  unfold Cert.Spec.proj
  refine Finset.sum_congr rfl fun f _ => ?_
  rw [lidx1, ridx1]

/-- The third projection is `proj` against the third weight matrix. -/
theorem v2_at (x : (⟨S8x4096x1024, .f32⟩ : BufTy).Contents (Elt Ideal)) (w : (⟨S1024x1024, .f32⟩ : BufTy).Contents (Elt Ideal))
    (b : Fin 8) (n : Fin 4096) (o : Fin 1024) :
    Read.val_main_v2 (F := Ideal) x w (ix3 b n o) = Cert.Spec.proj (Cert.Spec.cur3 x) (Cert.Spec.cur2 w) b n o := by
  rw [Read.val_main_v2_apply]
  unfold Cert.Spec.proj
  refine Finset.sum_congr rfl fun f _ => ?_
  rw [lidx2, ridx2]

/-- The scaled attention weight of row `n` against row `m`. -/
theorem v5_at (x : (⟨S8x4096x1024, .f32⟩ : BufTy).Contents (Elt Ideal)) (w1 w2 : (⟨S256x1024, .f32⟩ : BufTy).Contents (Elt Ideal))
    (b : Fin 8) (n m : Fin 4096) :
    Read.val_main_v5 (F := Ideal) x w1 w2 (ix3 b n m)
      = (∑ l : Fin 256, Cert.Spec.proj (Cert.Spec.cur3 x) (Cert.Spec.cur2 w1) b n l * Cert.Spec.proj (Cert.Spec.cur3 x) (Cert.Spec.cur2 w2) b m l) * Cert.Spec.s := by
  rw [Read.val_main_v5_apply, Read.val_main_v3_apply, Read.val_main_v4_apply, Read.val_main_cst_apply, Ideal.mulf_def, Ideal.ofBits_def]
  unfold Cert.Spec.s
  congr 1
  refine Finset.sum_congr rfl fun l _ => ?_
  rw [lidx3, ridx3, v0_at, v1_at]

/-- The reference's result at `(b, n, o)` is the specification's `refOut`. -/
theorem ref_eq (x : (⟨S8x4096x1024, .f32⟩ : BufTy).Contents (Elt Ideal)) (w1 w2 : (⟨S256x1024, .f32⟩ : BufTy).Contents (Elt Ideal))
    (w3 : (⟨S1024x1024, .f32⟩ : BufTy).Contents (Elt Ideal)) (b : Fin 8) (n : Fin 4096) (o : Fin 1024) :
    Cert.ReferenceIdeal.Read.val_main_v6 (F := Ideal) x w1 w2 w3 (ix3 b n o)
      = Cert.Spec.refOut (Cert.Spec.cur3 x) (Cert.Spec.cur2 w1) (Cert.Spec.cur2 w2) (Cert.Spec.cur2 w3) b n o := by
  rw [Read.val_main_v6_apply]
  unfold Cert.Spec.refOut
  refine Finset.sum_congr rfl fun m _ => ?_
  rw [lidx6, ridx6, v5_at, v2_at]

end Cert.RefValue

end
-- ==== Proof.Algebra.lean ====
/-
  The algebra that joins the kernel's chain of arrays to the reference's formula, on the extended reals.

  * `ker_chain`: the three calls' outputs, composed, are `kerOut` of the inputs read by coordinates. No finiteness
    is needed: every column of the stacked weights is a row of one of the three matrices.
  * `s_real`: the scale is the real number 1/32.
  * `ker_eq_ref`: for real-valued inputs the kernel's formula is the reference's. Every projection is then (the
    coercion of) a real sum, the four slabs exhaust the 4096 rows, and what is left is an exchange of two finite
    sums of real products.
-/
import proofs.«146318_j26594437496900_2_alg».proof.Proof.Spec

noncomputable section

open scoped BigOperators

namespace Cert.Spec

open Idealize.ShloMosaic Idealize.ShloMosaic.ValueIdx

/-! ## The stacked weights read in each of the three column ranges -/

/-- Columns 0..255 of the stack are the first matrix. -/
theorem wcat_j0 (wθ wφ : Fin 256 → Fin 1024 → EReal) (wg : Fin 1024 → Fin 1024 → EReal) (l : Fin 256) (f : Fin 1024) :
    wcat wθ wφ wg (j0 l) f = wθ l f := by
  unfold wcat
  rw [dif_pos (show (j0 l).val < 256 from l.isLt)]
  rfl

/-- Columns 256..511 are the second matrix. -/
theorem wcat_j1 (wθ wφ : Fin 256 → Fin 1024 → EReal) (wg : Fin 1024 → Fin 1024 → EReal) (l : Fin 256) (f : Fin 1024) :
    wcat wθ wφ wg (j1 l) f = wφ l f := by
  have hl := l.isLt
  unfold wcat
  rw [dif_neg (show ¬ (j1 l).val < 256 by show ¬ (256 + l.val < 256); omega),
    dif_pos (show (j1 l).val < 512 by show 256 + l.val < 512; omega)]
  congr 1
  exact Fin.ext (show 256 + l.val - 256 = l.val by omega)

/-- Columns 512..1535 are the third matrix. -/
theorem wcat_j2 (wθ wφ : Fin 256 → Fin 1024 → EReal) (wg : Fin 1024 → Fin 1024 → EReal) (o : Fin 1024) (f : Fin 1024) :
    wcat wθ wφ wg (j2 o) f = wg o f := by
  have ho := o.isLt
  unfold wcat
  rw [dif_neg (show ¬ (j2 o).val < 256 by show ¬ (512 + o.val < 256); omega),
    dif_neg (show ¬ (j2 o).val < 512 by show ¬ (512 + o.val < 512); omega)]
  congr 1
  exact Fin.ext (show 512 + o.val - 512 = o.val by omega)

/-- A row of `x` against a column of the first range is its projection by the first matrix. -/
theorem y_j0 (x : A3 8 4096 1024) (w1 w2 : A2 256 1024) (w3 : A2 1024 1024) (b : Fin 8) (n : Fin 4096) (l : Fin 256) :
    y x (wtOf w1 w2 w3) b n (j0 l) = proj (cur3 x) (cur2 w1) b n l := by
  unfold y proj
  refine Finset.sum_congr rfl fun f _ => ?_
  show x (ix3 b n f) * wcat (cur2 w1) (cur2 w2) (cur2 w3) (j0 l) f = x (ix3 b n f) * cur2 w1 l f
  rw [wcat_j0]

/-- … of the second range, by the second matrix. -/
theorem y_j1 (x : A3 8 4096 1024) (w1 w2 : A2 256 1024) (w3 : A2 1024 1024) (b : Fin 8) (n : Fin 4096) (l : Fin 256) :
    y x (wtOf w1 w2 w3) b n (j1 l) = proj (cur3 x) (cur2 w2) b n l := by
  unfold y proj
  refine Finset.sum_congr rfl fun f _ => ?_
  show x (ix3 b n f) * wcat (cur2 w1) (cur2 w2) (cur2 w3) (j1 l) f = x (ix3 b n f) * cur2 w2 l f
  rw [wcat_j1]

/-- … of the third range, by the third matrix. -/
theorem y_j2 (x : A3 8 4096 1024) (w1 w2 : A2 256 1024) (w3 : A2 1024 1024) (b : Fin 8) (n : Fin 4096) (o : Fin 1024) :
    y x (wtOf w1 w2 w3) b n (j2 o) = proj (cur3 x) (cur2 w3) b n o := by
  unfold y proj
  refine Finset.sum_congr rfl fun f _ => ?_
  show x (ix3 b n f) * wcat (cur2 w1) (cur2 w2) (cur2 w3) (j2 o) f = x (ix3 b n f) * cur2 w3 o f
  rw [wcat_j2]

/-- The three calls composed are the kernel's formula on the inputs read by coordinates. -/
theorem ker_chain (x : A3 8 4096 1024) (w1 w2 : A2 256 1024) (w3 : A2 1024 1024) (b : Fin 8) (n : Fin 4096) (o : Fin 1024) :
    G2 (G0_2 x (wtOf w1 w2 w3)) (G1 (G0_3 x (wtOf w1 w2 w3)) (G0_4 x (wtOf w1 w2 w3))) (ix3 b n o)
      = kerOut (cur3 x) (cur2 w1) (cur2 w2) (cur2 w3) b n o := by
  show ∑ l : Fin 256, (y x (wtOf w1 w2 w3) b n (j0 l) * s)
      * accM (fun m => y x (wtOf w1 w2 w3) b m (j1 l)) (fun m => y x (wtOf w1 w2 w3) b m (j2 o))
    = ∑ l : Fin 256, (proj (cur3 x) (cur2 w1) b n l * s)
      * accM (fun m => proj (cur3 x) (cur2 w2) b m l) (fun m => proj (cur3 x) (cur2 w3) b m o)
  refine Finset.sum_congr rfl fun l _ => ?_
  rw [y_j0]
  congr 1
  congr 1
  · funext m; exact y_j1 x w1 w2 w3 b m l
  · funext m; exact y_j2 x w1 w2 w3 b m o

/-! ## The scale -/

/-- The word `0x3D000000` is 1/32: exponent field 122, so 2^(122-127) = 2^(-5), with a zero fraction. -/
theorem s_eq : s = (((1 : ℝ) / 32 : ℝ) : EReal) := by
  simp [s, Ideal.ofBits, Ideal.ieee, -EReal.coe_mul]; norm_num

theorem s_real : ∃ r : ℝ, s = (r : EReal) := ⟨_, s_eq⟩

/-! ## The four slabs are all the rows -/

/-- A row is a slab and a row within it. -/
def slabEquiv : Fin 4 × Fin 1024 ≃ Fin 4096 where
  toFun p := slabRow p.1 p.2
  invFun m := (⟨m.val / 1024, by have := m.isLt; omega⟩, ⟨m.val % 1024, Nat.mod_lt _ (by norm_num)⟩)
  left_inv := by
    rintro ⟨k, r⟩
    have hk := k.isLt
    have hr := r.isLt
    refine Prod.ext (Fin.ext ?_) (Fin.ext ?_)
    · show (1024 * k.val + r.val) / 1024 = k.val
      omega
    · show (1024 * k.val + r.val) % 1024 = r.val
      omega
  right_inv := by
    intro m
    refine Fin.ext ?_
    show 1024 * (m.val / 1024) + m.val % 1024 = m.val
    omega

/-- A sum over the 4096 rows is the four slabs' sums added from zero in order. -/
theorem sum_slabs {M : Type*} [AddCommMonoid M] (F : Fin 4096 → M) :
    ∑ m : Fin 4096, F m
      = (((0 + ∑ r : Fin 1024, F (slabRow 0 r)) + ∑ r : Fin 1024, F (slabRow 1 r))
          + ∑ r : Fin 1024, F (slabRow 2 r)) + ∑ r : Fin 1024, F (slabRow 3 r) := by
  rw [← Equiv.sum_comp slabEquiv F, Fintype.sum_prod_type, Fin.sum_univ_four, zero_add]
  rfl

/-- The slab-by-slab accumulation is the sum over all rows (no finiteness needed). -/
theorem accM_eq (p g : Fin 4096 → EReal) : accM p g = ∑ m : Fin 4096, p m * g m := by
  unfold accM slabSum
  exact (sum_slabs fun m => p m * g m).symm

/-! ## Real sums inside the extended reals -/

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A projection of real-valued data is a real sum. -/
theorem proj_coe {L : Nat} (x : Fin 8 → Fin 4096 → Fin 1024 → ℝ) (w : Fin L → Fin 1024 → ℝ)
    (b : Fin 8) (n : Fin 4096) (l : Fin L) :
    proj (fun b n f => (x b n f : EReal)) (fun l f => (w l f : EReal)) b n l
      = ((∑ f : Fin 1024, x b n f * w l f : ℝ) : EReal) := by
  unfold proj
  rw [coe_sum]
  exact Finset.sum_congr rfl fun f _ => (EReal.coe_mul _ _).symm

/-- The exchange of the two sums, in the reals. -/
theorem real_swap {ι κ : Type*} [Fintype ι] [Fintype κ] (θ : ι → ℝ) (φ : κ → ι → ℝ) (g : κ → ℝ) (c : ℝ) :
    ∑ l, (θ l * c) * ∑ m, φ m l * g m = ∑ m, ((∑ l, θ l * φ m l) * c) * g m := by
  simp only [Finset.mul_sum, Finset.sum_mul]
  rw [Finset.sum_comm]
  exact Finset.sum_congr rfl fun m _ => Finset.sum_congr rfl fun l _ => by ring

/-- The same exchange for coerced reals. -/
theorem ereal_swap (θ : Fin 256 → ℝ) (φ : Fin 4096 → Fin 256 → ℝ) (g : Fin 4096 → ℝ) (c : ℝ) :
    ∑ l : Fin 256, ((θ l : EReal) * (c : EReal)) * ∑ m : Fin 4096, (φ m l : EReal) * (g m : EReal)
      = ∑ m : Fin 4096, ((∑ l : Fin 256, (θ l : EReal) * (φ m l : EReal)) * (c : EReal)) * (g m : EReal) := by
  have hL : ∑ l : Fin 256, ((θ l : EReal) * (c : EReal)) * ∑ m : Fin 4096, (φ m l : EReal) * (g m : EReal)
      = ((∑ l : Fin 256, (θ l * c) * ∑ m : Fin 4096, φ m l * g m : ℝ) : EReal) := by
    rw [coe_sum]
    refine Finset.sum_congr rfl fun l _ => ?_
    rw [EReal.coe_mul, EReal.coe_mul, coe_sum]
    congr 1
  have hR : ∑ m : Fin 4096, ((∑ l : Fin 256, (θ l : EReal) * (φ m l : EReal)) * (c : EReal)) * (g m : EReal)
      = ((∑ m : Fin 4096, ((∑ l : Fin 256, θ l * φ m l) * c) * g m : ℝ) : EReal) := by
    rw [coe_sum]
    refine Finset.sum_congr rfl fun m _ => ?_
    rw [EReal.coe_mul, EReal.coe_mul, coe_sum]
    congr 2
  rw [hL, hR, real_swap]

/-! ## The kernel's formula is the reference's -/

theorem ker_eq_ref (x : Fin 8 → Fin 4096 → Fin 1024 → EReal) (wθ wφ : Fin 256 → Fin 1024 → EReal) (wg : Fin 1024 → Fin 1024 → EReal)
    (hx : ∀ b n f, ∃ r : ℝ, x b n f = (r : EReal)) (hθ : ∀ l f, ∃ r : ℝ, wθ l f = (r : EReal))
    (hφ : ∀ l f, ∃ r : ℝ, wφ l f = (r : EReal)) (hg : ∀ o f, ∃ r : ℝ, wg o f = (r : EReal))
    (b : Fin 8) (n : Fin 4096) (o : Fin 1024) : kerOut x wθ wφ wg b n o = refOut x wθ wφ wg b n o := by
  choose xr hxr using hx
  choose θr hθr using hθ
  choose φr hφr using hφ
  choose gr hgr using hg
  obtain ⟨c, hc⟩ := s_real
  obtain rfl : x = fun b n f => (xr b n f : EReal) := by funext b n f; exact hxr b n f
  obtain rfl : wθ = fun l f => (θr l f : EReal) := by funext l f; exact hθr l f
  obtain rfl : wφ = fun l f => (φr l f : EReal) := by funext l f; exact hφr l f
  obtain rfl : wg = fun o f => (gr o f : EReal) := by funext o f; exact hgr o f
  unfold kerOut refOut mat
  simp only [accM_eq, proj_coe, hc]
  exact ereal_swap _ _ _ c

end Cert.Spec

end
-- ==== Proof.Finite.lean ====
/-
  Finiteness of the arguments. The precondition `finite_inputs` is the conjunction, over the four argument arrays, of
  `all (|x| < +∞)`: each array's absolute value is compared, entry by entry, with the f32 pattern 0x7F800000 (sign 0,
  exponent all ones, fraction 0: +∞), and the comparisons are folded by `and` over every axis. Read at the extended
  reals, an entry x with `max x (-x) < ⊤` is neither ⊤ nor ⊥ (for either, `max x (-x) = ⊤`), hence a real number.
  So: when the predicate is all ones, every entry of every argument array is (the coercion of) a real.
-/
import proofs.«146318_j26594437496900_2_alg».proof.Defs
import proofs.«146318_j26594437496900_2_alg».proof.Proof.Gen.Pre_finite_inputs
import Idealize.ShloMosaic.Lib.ReduceAll
import Idealize.ShloMosaic.Lib.ValueIdx

set_option maxRecDepth 16384

noncomputable section

namespace Cert.Finite

open Idealize.ShloMosaic Idealize.SL.Sem
open Cert.Pre_finite_inputs

/-- The scalar shape has one index. -/
instance subsingleton_S_ : Subsingleton S_.Idx := ⟨fun a b => funext fun d => d.elim0⟩

/-- An extended real whose absolute value `max x (-x)` is below +∞ is a real: at ⊥ and at ⊤ that maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (sign 0, exponent 255, fraction 0) denotes +∞. -/
theorem inf_eq : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- ONE ENTRY: the element test `|x| < 0x7F800000` coming out 1 says x is a real. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : BitVec.ofBool (decide (max x (-x) < Ideal.ofBits .f32 0x7F800000#32)) = 1#1 := h
  rw [inf_eq, ofBool_eq_one, decide_eq_true_eq] at h'
  exact real_of_abs_lt_top x h'

/-- ONE ARRAY, any shape: `all (|a| < +∞)` coming out 1 says every entry of `a` is a real. -/
theorem real_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf a) (broadcastInDim s ![] hb (constant (F := Ideal) S_ .f32 0x7F800000#32)))
          init hr hu ValueIdx.ix0 = 1#1) (i : s.Idx) : ∃ r : ℝ, a i = (r : EReal) :=
  real_of_test (a i) (Host.reduce_andi_all _ init hr hu ValueIdx.ix0 e i)

/-- THE PREDICATE DECODED: when `finite_inputs` of four arrays is all ones, every entry of each is a real. -/
theorem real_of_fn [Cert.Pre_finite_inputs.Facts] (a0 : FVec Ideal S8x4096x1024 .f32) (a1 a2 : FVec Ideal S256x1024 .f32)
    (a3 : FVec Ideal S1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have e := congrFun h ValueIdx.ix0
  dsimp only [fn, fn_part1] at e
  -- the result is the `and` of the four reductions, read at the scalar's one index
  obtain ⟨e012, e3⟩ := IntOp.andi_eq_one.1 e
  obtain ⟨e01, e2⟩ := IntOp.andi_eq_one.1 e012
  obtain ⟨e0, e1⟩ := IntOp.andi_eq_one.1 e01
  exact ⟨real_of_all a0 _ _ _ _ e0, real_of_all a1 _ _ _ _ e1, real_of_all a2 _ _ _ _ e2, real_of_all a3 _ _ _ _ e3⟩

/-- THE CLAIM'S PRECONDITION DECODED: on every device the four argument arrays of the idealized kernel hold reals. -/
theorem real_of_pre (hP : Cert.Pre_finite_inputs.Facts)
    (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) :=
  real_of_fn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (h c)

end Cert.Finite

end
-- ==== Proof.Final.lean ====
/-
  The value of the idealized kernel against the reference, and the five parts of the claim.

  The kernel's result array is what the last call's write-backs fold to; read back through the three calls it is
  `G2 (G0_2 x wt) (G1 (G0_3 x wt) (G0_4 x wt))` of the argument array `x` and the transposed stacked weights `wt`,
  which index by index is `∑ l, (θ·s) · M`. The reference's is `∑ m, ((∑ l, θ·φ) · s) · g`. For finite inputs every
  entry is a real number and the two are the same real sum, regrouped.
-/
import proofs.«146318_j26594437496900_2_alg».proof.Defs
import proofs.«146318_j26594437496900_2_alg».proof.Proof.Gen.Kernel
import proofs.«146318_j26594437496900_2_alg».proof.Proof.Gen.KernelIdeal
import proofs.«146318_j26594437496900_2_alg».proof.Proof.Gen.ReferenceIdeal
import proofs.«146318_j26594437496900_2_alg».proof.Proof.Gen.Pre_finite_inputs
import proofs.«146318_j26594437496900_2_alg».proof.Proof.Gen.ReferenceIdeal.Run
import proofs.«146318_j26594437496900_2_alg».proof.Proof.Gen.ReferenceIdeal.Read
import proofs.«146318_j26594437496900_2_alg».proof.Proof.KernelIdeal.Run
import proofs.«146318_j26594437496900_2_alg».proof.Proof.KernelIdeal.Body0
import proofs.«146318_j26594437496900_2_alg».proof.Proof.KernelIdeal.Body1
import proofs.«146318_j26594437496900_2_alg».proof.Proof.KernelIdeal.Body2
import proofs.«146318_j26594437496900_2_alg».proof.Proof.Kernel.Run
import proofs.«146318_j26594437496900_2_alg».proof.Proof.Kernel.Body0
import proofs.«146318_j26594437496900_2_alg».proof.Proof.Kernel.Body1
import proofs.«146318_j26594437496900_2_alg».proof.Proof.Kernel.Body2
import proofs.«146318_j26594437496900_2_alg».proof.Proof.Val0
import proofs.«146318_j26594437496900_2_alg».proof.Proof.Val1
import proofs.«146318_j26594437496900_2_alg».proof.Proof.Val2
import proofs.«146318_j26594437496900_2_alg».proof.Proof.RefValue
import proofs.«146318_j26594437496900_2_alg».proof.Proof.Algebra
import proofs.«146318_j26594437496900_2_alg».proof.Proof.Finite

set_option maxRecDepth 16384

noncomputable section

namespace Cert.Final

open Idealize.ShloMosaic Idealize.ShloMosaic.TcCoe Idealize.SL.Sem Idealize.ShloMosaic.ValueIdx

/-! ## The bodies' obligations, for both printed programs -/

theorem bodiesKI {F : FTy → Type} [FloatOps F] : Cert.KernelIdeal.Hand.Bodies (F := F) :=
  ⟨fun V c => Cert.KernelIdeal.Hand.body_obligation0 V c, fun V c => Cert.KernelIdeal.Hand.body_obligation1 V c,
   fun V c => Cert.KernelIdeal.Hand.body_obligation2 V c, fun V c => Cert.KernelIdeal.Hand.hin1 V c,
   fun V c => Cert.KernelIdeal.Hand.hout1 V c⟩

theorem bodiesK {F : FTy → Type} [FloatOps F] : Cert.Kernel.Hand.Bodies (F := F) :=
  ⟨fun V c => Cert.Kernel.Hand.body_obligation0 V c, fun V c => Cert.Kernel.Hand.body_obligation1 V c,
   fun V c => Cert.Kernel.Hand.body_obligation2 V c, fun V c => Cert.Kernel.Hand.hin1 V c,
   fun V c => Cert.Kernel.Hand.hout1 V c⟩

/-! ## The idealized kernel's result, read back through its three calls -/

section Value

open Cert.KernelIdeal Cert.KernelIdeal.Gen Cert.KernelIdeal.Hand

variable (m : (ℓ : Loc nD τ sig) → Buf (Elt Ideal) ℓ) (ρ : Dev nD → PrngReg)

/-- The transposed stacked weights call 0 is entered with, from the three argument matrices. -/
theorem V1_v2 (c : Dev nD) : V1 m ρ c main_v2
    = Cert.Spec.wtOf (m ((c.tc : Thread nD τ).loc main_arg1)) (m ((c.tc : Thread nD τ).loc main_arg2)) (m ((c.tc : Thread nD τ).loc main_arg3)) :=
  Cert.KernelIdeal.Val0.wt_eq (W0 m ρ c)

/-- The result array as the composed whole-array functions of the argument arrays. -/
theorem result_G (c : Dev nD) :
    (dat2 (F := Ideal) (V3 m ρ) c).arrAt 2 cfg2.N
      = Cert.Spec.G2
          (Cert.Spec.G0_2 (m ((c.tc : Thread nD τ).loc main_arg0)) (Cert.Spec.wtOf (m ((c.tc : Thread nD τ).loc main_arg1)) (m ((c.tc : Thread nD τ).loc main_arg2)) (m ((c.tc : Thread nD τ).loc main_arg3))))
          (Cert.Spec.G1
            (Cert.Spec.G0_3 (m ((c.tc : Thread nD τ).loc main_arg0)) (Cert.Spec.wtOf (m ((c.tc : Thread nD τ).loc main_arg1)) (m ((c.tc : Thread nD τ).loc main_arg2)) (m ((c.tc : Thread nD τ).loc main_arg3))))
            (Cert.Spec.G0_4 (m ((c.tc : Thread nD τ).loc main_arg0)) (Cert.Spec.wtOf (m ((c.tc : Thread nD τ).loc main_arg1)) (m ((c.tc : Thread nD τ).loc main_arg2)) (m ((c.tc : Thread nD τ).loc main_arg3))))) := by
  have e0 := V1_arg0 m ρ c
  have e1 := V1_v2 m ρ c
  have h02 := (V3_v3_0 m ρ c).trans (Cert.KernelIdeal.Val0.final0_2 (V1 m ρ) c)
  have h03 := (V2_v3_1 m ρ c).trans (Cert.KernelIdeal.Val0.final0_3 (V1 m ρ) c)
  have h04 := (V2_v3_2 m ρ c).trans (Cert.KernelIdeal.Val0.final0_4 (V1 m ρ) c)
  have h1 := (V3_v4 m ρ c).trans (Cert.KernelIdeal.Val1.final1_2 (V2 m ρ) c)
  rw [e0, e1] at h02 h03 h04
  rw [h03, h04] at h1
  rw [Cert.KernelIdeal.Val2.final2_2 (V3 m ρ) c, h02, h1]

/-- For finite inputs the composed function is, index by index, the reference's result: both are the same sum of
    real products, the kernel's grouped by latent feature, the reference's by row. -/
theorem spec_value (hP : Cert.Pre_finite_inputs.Facts)
    (hpre : Cert.Pre_KernelIdeal (hPre_finite_inputs := hP) m) (c : Dev nD) :
    Cert.Spec.G2
          (Cert.Spec.G0_2 (m ((c.tc : Thread nD τ).loc main_arg0)) (Cert.Spec.wtOf (m ((c.tc : Thread nD τ).loc main_arg1)) (m ((c.tc : Thread nD τ).loc main_arg2)) (m ((c.tc : Thread nD τ).loc main_arg3))))
          (Cert.Spec.G1
            (Cert.Spec.G0_3 (m ((c.tc : Thread nD τ).loc main_arg0)) (Cert.Spec.wtOf (m ((c.tc : Thread nD τ).loc main_arg1)) (m ((c.tc : Thread nD τ).loc main_arg2)) (m ((c.tc : Thread nD τ).loc main_arg3))))
            (Cert.Spec.G0_4 (m ((c.tc : Thread nD τ).loc main_arg0)) (Cert.Spec.wtOf (m ((c.tc : Thread nD τ).loc main_arg1)) (m ((c.tc : Thread nD τ).loc main_arg2)) (m ((c.tc : Thread nD τ).loc main_arg3)))))
      = Cert.ReferenceIdeal.Read.val_main_v6 (F := Ideal) (m ((c.tc : Thread nD τ).loc main_arg0)) (m ((c.tc : Thread nD τ).loc main_arg1)) (m ((c.tc : Thread nD τ).loc main_arg2)) (m ((c.tc : Thread nD τ).loc main_arg3)) := by
  obtain ⟨h0, h1, h2, h3⟩ := Cert.Finite.real_of_pre hP m hpre c
  funext i
  obtain ⟨b, n, o, rfl⟩ : ∃ (b : Fin 8) (n : Fin 4096) (o : Fin 1024), i = ix3 b n o := ⟨i 0, i 1, i 2, eq_ix3 i⟩
  rw [Cert.RefValue.ref_eq, Cert.Spec.ker_chain]
  exact Cert.Spec.ker_eq_ref _ _ _ _ (fun b n f => h0 (ix3 b n f)) (fun l f => h1 (ix2 l f)) (fun l f => h2 (ix2 l f)) (fun o f => h3 (ix2 o f)) b n o

end Value

/-! ## The claims -/

theorem frame_k : Cert.frame_Kernel := fun m ρ _ => Cert.Kernel.Hand.frame m ρ bodiesK
theorem frame_ki : Cert.frame_KernelIdeal := fun m ρ _ => Cert.KernelIdeal.Hand.frame m ρ bodiesKI
theorem frame_ri : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with the same result array. -/
theorem algebraic : Cert.algebraic_KernelIdeal_ReferenceIdeal := by
  intro m ρ m' ρ' hpre hagree
  refine ⟨fun c => (Cert.KernelIdeal.Hand.dat2 (F := Ideal) (Cert.KernelIdeal.Hand.V3 m ρ) c).arrAt 2 Cert.KernelIdeal.cfg2.N,
    Cert.KernelIdeal.Hand.run_all m ρ bodiesKI, ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2.1, (hagree c).2.2.2, Cert.ReferenceIdeal.Read.val_main_v6_eq]
  exact ((result_G m ρ c).trans (spec_value m _ hpre c)).symm

end Cert.Final

end
-- ==== Proof.lean ====
/-
  The certificate's claim: the kernel (as printed at the word level and as idealized) and the reference each run to
  the end, fault nowhere and keep their argument arrays; the idealization rewrote nothing; and over the extended
  reals, for finite inputs, the idealized kernel and the reference end with the same result. The kernel computes
  `scale · θ · (φᵀ g)` in three calls (projection, per-batch reduction, final product); the reference computes
  `((θ φᵀ) · scale) · g`; the two are one real sum regrouped.
-/
import proofs.«146318_j26594437496900_2_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Final.frame_k, Cert.Final.frame_ki, Cert.Final.frame_ri, trivial, Cert.Final.algebraic⟩

end Cert.Proof

end
